-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1x192x192x192 : Shape := ⟨5, ![4, 1, 192, 192, 192]⟩
abbrev S_ : Shape := ⟨0, ![]⟩

class Facts : Prop where
  bcast_S_S4x1x192x192x192 : S_.BroadcastsInDim S4x1x192x192x192 (![] : Fin 0 → Fin S4x1x192x192x192.rank)
  reducesTo_S4x1x192x192x192_S_d0_1_2_3_4 : S4x1x192x192x192.ReducesTo [0, 1, 2, 3, 4] S_
  h_S_ : 0 < S_.numel

variable [Facts]

def fn {F : FTy → Type} [FloatOps F] (main_arg0 : FVec F S4x1x192x192x192 .f32) (main_arg1 : FVec F S4x1x192x192x192 .f32) : IVec S_ 1 :=
  let main_v0 : FVec F S4x1x192x192x192 .f32 := Host.absf main_arg0
  let main_cst : FVec F S_ .f32 := constant S_ .f32 0x7F800000#32
  let main_v1 : FVec F S4x1x192x192x192 .f32 := broadcastInDim S4x1x192x192x192 ![] bcast_S_S4x1x192x192x192 main_cst
  let main_v2 : IVec S4x1x192x192x192 1 := cmpf .olt main_v0 main_v1
  let main_c : IVec S_ 1 := constantI S_ 1 1#1
  let main_v3 : IVec S_ 1 := (fun x v => Host.reduce IntOp.andi x v reducesTo_S4x1x192x192x192_S_d0_1_2_3_4 h_S_) main_v2 main_c
  let main_v4 : FVec F S4x1x192x192x192 .f32 := Host.absf main_arg1
  let main_cst_0 : FVec F S_ .f32 := constant S_ .f32 0x7F800000#32
  let main_v5 : FVec F S4x1x192x192x192 .f32 := broadcastInDim S4x1x192x192x192 ![] bcast_S_S4x1x192x192x192 main_cst_0
  let main_v6 : IVec S4x1x192x192x192 1 := cmpf .olt main_v4 main_v5
  let main_c_1 : IVec S_ 1 := constantI S_ 1 1#1
  let main_v7 : IVec S_ 1 := (fun x v => Host.reduce IntOp.andi x v reducesTo_S4x1x192x192x192_S_d0_1_2_3_4 h_S_) main_v6 main_c_1
  let main_v8 : IVec S_ 1 := andi main_v3 main_v7
  main_v8
-- ==== Kernel.lean ====
abbrev S4x1x192x192x192 : Shape := ⟨5, ![4, 1, 192, 192, 192]⟩
abbrev S4x1x1 : Shape := ⟨3, ![4, 1, 1]⟩
abbrev S1x1x24x192x192 : Shape := ⟨5, ![1, 1, 24, 192, 192]⟩
abbrev S1x1x1 : Shape := ⟨3, ![1, 1, 1]⟩
abbrev S4608x192 : Shape := ⟨2, ![4608, 192]⟩
abbrev S192 : Shape := ⟨1, ![192]⟩
abbrev S1x192 : Shape := ⟨2, ![1, 192]⟩
abbrev S1 : Shape := ⟨1, ![1]⟩
abbrev S1x1 : Shape := ⟨2, ![1, 1]⟩
abbrev S4 : Shape := ⟨1, ![4]⟩
abbrev S_ : Shape := ⟨0, ![]⟩

abbrev nBuf : Space → Nat
  | .hbm => 54
  | .vmem => 14
  | .smem => 0
  | _ => 0

abbrev bufTy : (tb : Table) → Fin (tcTables nBuf tb) → BufTy
  | .hbm, ⟨0, _⟩ => ⟨S4x1x192x192x192, .f32⟩
  | .hbm, ⟨1, _⟩ => ⟨S4x1x192x192x192, .f32⟩
  | .hbm, ⟨2, _⟩ => ⟨S4x1x1, .f32⟩
  | .hbm, ⟨3, _⟩ => ⟨S4x1x1, .f32⟩
  | .hbm, ⟨4, _⟩ => ⟨S4x1x1, .f32⟩
  | .hbm, ⟨5, _⟩ => ⟨S4x1x1, .f32⟩
  | .hbm, ⟨6, _⟩ => ⟨S4x1x1, .f32⟩
  | .hbm, ⟨7, _⟩ => ⟨S4, .f32⟩
  | .hbm, ⟨8, _⟩ => ⟨S4, .f32⟩
  | .hbm, ⟨9, _⟩ => ⟨S4, .f32⟩
  | .hbm, ⟨10, _⟩ => ⟨S4, .f32⟩
  | .hbm, ⟨11, _⟩ => ⟨S4, .f32⟩
  | .hbm, ⟨12, _⟩ => ⟨S_, .f32⟩
  | .hbm, ⟨13, _⟩ => ⟨S4, .f32⟩
  | .hbm, ⟨14, _⟩ => ⟨S4, .f32⟩
  | .hbm, ⟨15, _⟩ => ⟨S_, .f32⟩
  | .hbm, ⟨16, _⟩ => ⟨S4, .f32⟩
  | .hbm, ⟨17, _⟩ => ⟨S4, .f32⟩
  | .hbm, ⟨18, _⟩ => ⟨S4, .f32⟩
  | .hbm, ⟨19, _⟩ => ⟨S4, .f32⟩
  | .hbm, ⟨20, _⟩ => ⟨S4, .f32⟩
  | .hbm, ⟨21, _⟩ => ⟨S4, .f32⟩
  | .hbm, ⟨22, _⟩ => ⟨S4, .f32⟩
  | .hbm, ⟨23, _⟩ => ⟨S_, .f32⟩
  | .hbm, ⟨24, _⟩ => ⟨S4, .f32⟩
  | .hbm, ⟨25, _⟩ => ⟨S4, .f32⟩
  | .hbm, ⟨26, _⟩ => ⟨S4, .f32⟩
  | .hbm, ⟨27, _⟩ => ⟨S_, .f32⟩
  | .hbm, ⟨28, _⟩ => ⟨S4, .f32⟩
  | .hbm, ⟨29, _⟩ => ⟨S4, .f32⟩
  | .hbm, ⟨30, _⟩ => ⟨S4, .f32⟩
  | .hbm, ⟨31, _⟩ => ⟨S4, .f32⟩
  | .hbm, ⟨32, _⟩ => ⟨S4, .f32⟩
  | .hbm, ⟨33, _⟩ => ⟨S_, .f32⟩
  | .hbm, ⟨34, _⟩ => ⟨S4, .f32⟩
  | .hbm, ⟨35, _⟩ => ⟨S4, .f32⟩
  | .hbm, ⟨36, _⟩ => ⟨S4, .f32⟩
  | .hbm, ⟨37, _⟩ => ⟨S_, .f32⟩
  | .hbm, ⟨38, _⟩ => ⟨S4, .f32⟩
  | .hbm, ⟨39, _⟩ => ⟨S4, .f32⟩
  | .hbm, ⟨40, _⟩ => ⟨S4, .f32⟩
  | .hbm, ⟨41, _⟩ => ⟨S4, .f32⟩
  | .hbm, ⟨42, _⟩ => ⟨S4, .f32⟩
  | .hbm, ⟨43, _⟩ => ⟨S_, .f32⟩
  | .hbm, ⟨44, _⟩ => ⟨S4, .f32⟩
  | .hbm, ⟨45, _⟩ => ⟨S4, .f32⟩
  | .hbm, ⟨46, _⟩ => ⟨S4, .f32⟩
  | .hbm, ⟨47, _⟩ => ⟨S4, .f32⟩
  | .hbm, ⟨48, _⟩ => ⟨S4, .f32⟩
  | .hbm, ⟨49, _⟩ => ⟨S4, .f32⟩
  | .hbm, ⟨50, _⟩ => ⟨S_, .f32⟩
  | .hbm, ⟨51, _⟩ => ⟨S4, .f32⟩
  | .hbm, ⟨52, _⟩ => ⟨S4, .f32⟩
  | .hbm, ⟨53, _⟩ => ⟨S4, .f32⟩
  | .local _ .vmem, ⟨0, _⟩ => ⟨S1x1x24x192x192, .f32⟩
  | .local _ .vmem, ⟨1, _⟩ => ⟨S1x1x24x192x192, .f32⟩
  | .local _ .vmem, ⟨2, _⟩ => ⟨S1x1x24x192x192, .f32⟩
  | .local _ .vmem, ⟨3, _⟩ => ⟨S1x1x24x192x192, .f32⟩
  | .local _ .vmem, ⟨4, _⟩ => ⟨S1x1x1, .f32⟩
  | .local _ .vmem, ⟨5, _⟩ => ⟨S1x1x1, .f32⟩
  | .local _ .vmem, ⟨6, _⟩ => ⟨S1x1x1, .f32⟩
  | .local _ .vmem, ⟨7, _⟩ => ⟨S1x1x1, .f32⟩
  | .local _ .vmem, ⟨8, _⟩ => ⟨S1x1x1, .f32⟩
  | .local _ .vmem, ⟨9, _⟩ => ⟨S1x1x1, .f32⟩
  | .local _ .vmem, ⟨10, _⟩ => ⟨S1x1x1, .f32⟩
  | .local _ .vmem, ⟨11, _⟩ => ⟨S1x1x1, .f32⟩
  | .local _ .vmem, ⟨12, _⟩ => ⟨S1x1x1, .f32⟩
  | .local _ .vmem, ⟨13, _⟩ => ⟨S1x1x1, .f32⟩
  | _, _ => ⟨S4x1x192x192x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v35 : BitVec 1 := Scalar.cmpi .eq arg1 c0_i32
  let v36 : BitVec 32 := Scalar.extui v35
  let c0_i32_18 : BitVec 32 := 0#32
  let v37 : BitVec 1 := Scalar.cmpi .ne v36 c0_i32_18
  v37

def k0_cond2 (i : grid0.Coords) : BitVec 1 :=
  let arg1 : BitVec 32 := BitVec.ofNat 32 (i 1).val
  let c0_i32_19 : BitVec 32 := 0#32
  let v38 : BitVec 1 := Scalar.cmpi .ne arg1 c0_i32_19
  let v39 : BitVec 32 := Scalar.extui v38
  let c0_i32_20 : BitVec 32 := 0#32
  let v40 : BitVec 1 := Scalar.cmpi .ne v39 c0_i32_20
  v40

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x24x192x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x24x192x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  inb_S1x1x24x192x192_S1x1x24x192x192_0_0_0_0_0 : ∀ a, (![0, 0, 0, 0, 0] : Fin 5 → Nat) a + S1x1x24x192x192.size a ≤ S1x1x24x192x192.size a
  h_S1x1x24x192x192 : 0 < S1x1x24x192x192.numel
  shapeCasts_S1x1x24x192x192_S4608x192 : S1x1x24x192x192.ShapeCasts S4608x192
  reduces_S4608x192_S192 : S4608x192.Reduces [0] S192
  shapeCasts_S192_S1x192 : S192.ShapeCasts S1x192
  reduces_S1x192_S1 : S1x192.Reduces [1] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  shapeCasts_S4x1x1_S4 : S4x1x1.ShapeCasts S4
  bcast_S_S4 : S_.BroadcastsInDim S4 (![] : Fin 0 → Fin S4.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x24x192x192.size a ≤ S4x1x192x192x192.size a
  hwx0_0 : ∀ i : grid0.Coords, EltTy.bits .f32 = 32 ∨ (Rect.block (s := S4x1x192x192x192) S1x1x24x192x192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x24x192x192.size a ≤ S4x1x192x192x192.size a
  hwx0_1 : ∀ i : grid0.Coords, EltTy.bits .f32 = 32 ∨ (Rect.block (s := S4x1x192x192x192) S1x1x24x192x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S4x1x1.size a
  hwx0_2 : ∀ i : grid0.Coords, EltTy.bits .f32 = 32 ∨ (Rect.block (s := S4x1x1) S1x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S4x1x1.size a
  hwx0_3 : ∀ i : grid0.Coords, EltTy.bits .f32 = 32 ∨ (Rect.block (s := S4x1x1) S1x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S4x1x1.size a
  hwx0_4 : ∀ i : grid0.Coords, EltTy.bits .f32 = 32 ∨ (Rect.block (s := S4x1x1) S1x1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S4x1x1.size a
  hwx0_5 : ∀ i : grid0.Coords, EltTy.bits .f32 = 32 ∨ (Rect.block (s := S4x1x1) S1x1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1.size a ≤ S4x1x1.size a
  hwx0_6 : ∀ i : grid0.Coords, EltTy.bits .f32 = 32 ∨ (Rect.block (s := S4x1x1) S1x1x1.size (cc0_transform_6 i) (hinb0_6 i)).WholeWords (EltTy.packing .f32)

variable [Facts₀]

abbrev win0_0 : Pipeline.Window sig grid0 :=
  Pipeline.Window.ofSpec (Memref.whole main_arg0) S1x1x24x192x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x24x192x192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x1x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_3) S1x1x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_4) S1x1x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun i => !(k0_cond1 i == 1#1) && !(k0_cond2 i == 1#1) | 3 => fun i => !(k0_cond1 i == 1#1) && !(k0_cond2 i == 1#1) | 4 => fun i => !(k0_cond1 i == 1#1) && !(k0_cond2 i == 1#1) | 5 => fun i => !(k0_cond1 i == 1#1) && !(k0_cond2 i == 1#1) | 6 => fun i => !(k0_cond1 i == 1#1) && !(k0_cond2 i == 1#1) | ⟨_ + 7, h⟩ => absurd h (Nat.not_lt.2 (Nat.le_add_left _ _))

class Facts : Prop extends Facts₀ where

variable [Facts]
-- ==== ReferenceIdeal.lean ====
abbrev S4x1x192x192x192 : Shape := ⟨5, ![4, 1, 192, 192, 192]⟩
abbrev S_ : Shape := ⟨0, ![]⟩
abbrev S4 : Shape := ⟨1, ![4]⟩

abbrev nBuf : Space → Nat
  | .hbm => 57
  | .vmem => 0
  | .smem => 0
  | _ => 0

abbrev bufTy : (tb : Table) → Fin (tcTables nBuf tb) → BufTy
  | .hbm, ⟨0, _⟩ => ⟨S4x1x192x192x192, .f32⟩
  | .hbm, ⟨1, _⟩ => ⟨S4x1x192x192x192, .f32⟩
  | .hbm, ⟨2, _⟩ => ⟨S_, .f32⟩
  | .hbm, ⟨3, _⟩ => ⟨S4, .f32⟩
  | .hbm, ⟨4, _⟩ => ⟨S_, .f32⟩
  | .hbm, ⟨5, _⟩ => ⟨S4, .f32⟩
  | .hbm, ⟨6, _⟩ => ⟨S4x1x192x192x192, .f32⟩
  | .hbm, ⟨7, _⟩ => ⟨S_, .f32⟩
  | .hbm, ⟨8, _⟩ => ⟨S4, .f32⟩
  | .hbm, ⟨9, _⟩ => ⟨S4x1x192x192x192, .f32⟩
  | .hbm, ⟨10, _⟩ => ⟨S_, .f32⟩
  | .hbm, ⟨11, _⟩ => ⟨S4, .f32⟩
  | .hbm, ⟨12, _⟩ => ⟨S4x1x192x192x192, .f32⟩
  | .hbm, ⟨13, _⟩ => ⟨S_, .f32⟩
  | .hbm, ⟨14, _⟩ => ⟨S4, .f32⟩
  | .hbm, ⟨15, _⟩ => ⟨S_, .f32⟩
  | .hbm, ⟨16, _⟩ => ⟨S4, .f32⟩
  | .hbm, ⟨17, _⟩ => ⟨S4, .f32⟩
  | .hbm, ⟨18, _⟩ => ⟨S_, .f32⟩
  | .hbm, ⟨19, _⟩ => ⟨S4, .f32⟩
  | .hbm, ⟨20, _⟩ => ⟨S4, .f32⟩
  | .hbm, ⟨21, _⟩ => ⟨S4, .f32⟩
  | .hbm, ⟨22, _⟩ => ⟨S4, .f32⟩
  | .hbm, ⟨23, _⟩ => ⟨S4, .f32⟩
  | .hbm, ⟨24, _⟩ => ⟨S4, .f32⟩
  | .hbm, ⟨25, _⟩ => ⟨S4, .f32⟩
  | .hbm, ⟨26, _⟩ => ⟨S_, .f32⟩
  | .hbm, ⟨27, _⟩ => ⟨S4, .f32⟩
  | .hbm, ⟨28, _⟩ => ⟨S4, .f32⟩
  | .hbm, ⟨29, _⟩ => ⟨S4, .f32⟩
  | .hbm, ⟨30, _⟩ => ⟨S_, .f32⟩
  | .hbm, ⟨31, _⟩ => ⟨S4, .f32⟩
  | .hbm, ⟨32, _⟩ => ⟨S4, .f32⟩
  | .hbm, ⟨33, _⟩ => ⟨S4, .f32⟩
  | .hbm, ⟨34, _⟩ => ⟨S4, .f32⟩
  | .hbm, ⟨35, _⟩ => ⟨S4, .f32⟩
  | .hbm, ⟨36, _⟩ => ⟨S_, .f32⟩
  | .hbm, ⟨37, _⟩ => ⟨S4, .f32⟩
  | .hbm, ⟨38, _⟩ => ⟨S4, .f32⟩
  | .hbm, ⟨39, _⟩ => ⟨S4, .f32⟩
  | .hbm, ⟨40, _⟩ => ⟨S_, .f32⟩
  | .hbm, ⟨41, _⟩ => ⟨S4, .f32⟩
  | .hbm, ⟨42, _⟩ => ⟨S4, .f32⟩
  | .hbm, ⟨43, _⟩ => ⟨S4, .f32⟩
  | .hbm, ⟨44, _⟩ => ⟨S4, .f32⟩
  | .hbm, ⟨45, _⟩ => ⟨S4, .f32⟩
  | .hbm, ⟨46, _⟩ => ⟨S_, .f32⟩
  | .hbm, ⟨47, _⟩ => ⟨S4, .f32⟩
  | .hbm, ⟨48, _⟩ => ⟨S4, .f32⟩
  | .hbm, ⟨49, _⟩ => ⟨S4, .f32⟩
  | .hbm, ⟨50, _⟩ => ⟨S4, .f32⟩
  | .hbm, ⟨51, _⟩ => ⟨S4, .f32⟩
  | .hbm, ⟨52, _⟩ => ⟨S4, .f32⟩
  | .hbm, ⟨53, _⟩ => ⟨S_, .f32⟩
  | .hbm, ⟨54, _⟩ => ⟨S4, .f32⟩
  | .hbm, ⟨55, _⟩ => ⟨S4, .f32⟩
  | .hbm, ⟨56, _⟩ => ⟨S4, .f32⟩
  | _, _ => ⟨S4x1x192x192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_cst_3 : Ref sig .tc := ⟨.hbm, 13, rfl⟩
abbrev main_v7 : Ref sig .tc := ⟨.hbm, 14, rfl⟩
abbrev main_cst_4 : Ref sig .tc := ⟨.hbm, 15, rfl⟩
abbrev main_v8 : Ref sig .tc := ⟨.hbm, 16, rfl⟩
abbrev main_v9 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_8 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_9 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_10 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_11 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]

class Facts₀ : Prop where
  reducesTo_S4x1x192x192x192_S4_d1_2_3_4 : S4x1x192x192x192.ReducesTo [1, 2, 3, 4] S4
  h_S_ : 0 < S_.numel
  bcast_S_S4 : S_.BroadcastsInDim S4 (![] : Fin 0 → Fin S4.rank)

variable [Facts₀]

class Facts : Prop extends Facts₀ where

variable [Facts]
-- ==== Proof.BitsBody.lean ====
/-
  The kernel's body at one grid point, run on whole staging buffers, in each of its two control cases.

  The grid is 4 batch elements by 8 depth tiles, point t = 8·b + d. The body loads the two input blocks, forms
  five partial sums of the block (Σ y_true, Σ y_pred, Σ y_true², Σ y_pred², Σ y_true·y_pred), and then
    * at the first depth tile of a batch element (d = 0) stores each partial sum into its output cell;
    * at every later tile (d ≠ 0) loads the cell, adds the partial sum, and stores the result back.
  Exactly one of the two branches is taken at every point, so no output cell is ever left untouched.
  Each run records, per output cell, the list of stores made into it; the lists are found by running the body.
-/
import proofs.«133945_j64441689309643_2_alg».proof.Proof.Gen.Kernel.Skeleton
import proofs.«133945_j64441689309643_2_alg».proof.Proof.Gen.Kernel.Frame

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch (store the partial sums) is taken exactly at the first depth tile of each batch element. -/
theorem first_iff : ∀ t : Fin cfg0.N, k0_cond1 (grid0.coords t) = 1#1 ↔ t.val % 8 = 0 :=
  (by decide +kernel : ∀ t : Fin grid0.N, k0_cond1 (grid0.coords t) = 1#1 ↔ t.val % 8 = 0)

/-- The second branch (add the partial sums to the cells) is taken exactly at the other seven depth tiles. -/
theorem later_iff : ∀ t : Fin cfg0.N, k0_cond2 (grid0.coords t) = 1#1 ↔ ¬t.val % 8 = 0 :=
  (by decide +kernel : ∀ t : Fin grid0.N, k0_cond2 (grid0.coords t) = 1#1 ↔ ¬t.val % 8 = 0)

/-- One of the two branches is taken at every grid coordinate: an output cell is stored into at every point. -/
theorem live : ∀ (w : Fin cfg0.W) (i : grid0.Coords), cfg0.idle w i = false := by decide +kernel

set_option maxHeartbeats 4000000 in
/-- The body at a first depth tile (d = 0): the input buffers hold `x0`, `x1`, the output cells hold anything; it ends with the inputs as they were and each output cell overwritten by the stores listed in `L4 … L8`. -/
noncomputable def runFirst (c : Dev nD) (i : grid0.Coords)
    (a2 : Memref sig .tc .vmem S1x1x24x192x192 .f32) (h2 : a2.IsWhole) (a3 : Memref sig .tc .vmem S1x1x24x192x192 .f32) (h3 : a3.IsWhole)
    (a4 : Memref sig .tc .vmem S1x1x1 .f32) (h4 : a4.IsWhole) (a5 : Memref sig .tc .vmem S1x1x1 .f32) (h5 : a5.IsWhole) (a6 : Memref sig .tc .vmem S1x1x1 .f32) (h6 : a6.IsWhole) (a7 : Memref sig .tc .vmem S1x1x1 .f32) (h7 : a7.IsWhole) (a8 : Memref sig .tc .vmem S1x1x1 .f32) (h8 : a8.IsWhole)
    (hc1 : k0_cond1 i = 1#1) (hc2 : ¬k0_cond2 i = 1#1)
    (x0 x1 : Vec F S1x1x24x192x192 .f32) :
    Σ' (L4 : List (View.Piece (Elt F) S1x1x1 .f32)), Σ' (L5 : List (View.Piece (Elt F) S1x1x1 .f32)), Σ' (L6 : List (View.Piece (Elt F) S1x1x1 .f32)), Σ' (L7 : List (View.Piece (Elt F) S1x1x1 .f32)), { L8 : List (View.Piece (Elt F) S1x1x1 .f32) //
      ∀ (E : Set ℕ) (K : PUnit → sProp 𝕄),
        iprop(owns (c : Thread nD τ) a2 fullShare x0 ∗ owns (c : Thread nD τ) a3 fullShare x1 ∗ (∃ d, owns (c : Thread nD τ) a4 fullShare d) ∗ (∃ d, owns (c : Thread nD τ) a5 fullShare d) ∗ (∃ d, owns (c : Thread nD τ) a6 fullShare d) ∗ (∃ d, owns (c : Thread nD τ) a7 fullShare d) ∗ (∃ d, owns (c : Thread nD τ) a8 fullShare d)
            ∗ (iprop(owns (c : Thread nD τ) a2 fullShare x0 ∗ owns (c : Thread nD τ) a3 fullShare x1 ∗ (∃ f, a4.view.loc (c : Thread nD τ) ↦[a4.view.set]{fullShare} a4.view.writes (Elt F) f L4) ∗ (∃ f, a5.view.loc (c : Thread nD τ) ↦[a5.view.set]{fullShare} a5.view.writes (Elt F) f L5) ∗ (∃ f, a6.view.loc (c : Thread nD τ) ↦[a6.view.set]{fullShare} a6.view.writes (Elt F) f L6) ∗ (∃ f, a7.view.loc (c : Thread nD τ) ↦[a7.view.set]{fullShare} a7.view.writes (Elt F) f L7) ∗ (∃ f, a8.view.loc (c : Thread nD τ) ↦[a8.view.set]{fullShare} a8.view.writes (Elt F) f L8)) -∗ K ⟨⟩))
          ⊢ wp frame (wpE (defs₀ (F := F)) Variants.none c none) E (cc0__ncc_sums_kernel i a2 h2 a3 h3 a4 h4 a5 h5 a6 h6 a7 h7 a8 h8) K } := by
  refine ⟨?_, ?_, ?_, ?_, ?_, fun E K => ?run⟩
  case run =>
    simp only [cc0__ncc_sums_kernel_eq_skeleton]; unfold cc0__ncc_sums_kernel_skel
    simp only [k0_part1_eq_skeleton]; unfold k0_part1_skel
    unfold owns
    iintro ⟨⟨%f0, %hf0, H0⟩, ⟨%f1, %hf1, H1⟩, ⟨%d4, %f4, -, H4⟩, ⟨%d5, %f5, -, H5⟩, ⟨%d6, %f6, -, H6⟩, ⟨%d7, %f7, -, H7⟩, ⟨%d8, %f8, -, H8⟩, Hk⟩
    obtain rfl := h2.eq_unread hf0; obtain rfl := h3.eq_unread hf1
    sl_exec (disch := first | exact hc1 | exact hc2)
    sl_step
    iapply Hk
    isplitl [H0]
    · iexists _; isplitr; · ipureintro; exact h2.read_unread _
      iexact H0
    isplitl [H1]
    · iexists _; isplitr; · ipureintro; exact h3.read_unread _
      iexact H1
    isplitl [H4]; · iexists _; iexact H4
    isplitl [H5]; · iexists _; iexact H5
    isplitl [H6]; · iexists _; iexact H6
    isplitl [H7]; · iexists _; iexact H7
    iexists _; iexact H8

set_option maxHeartbeats 4000000 in
/-- The body at a later depth tile (d ≠ 0): the input buffers hold `x0`, `x1`, the output cells hold the running sums `s4 … s8`; it ends with the inputs as they were and each output cell overwritten by the stores listed in `L4 … L8`. -/
noncomputable def runLater (c : Dev nD) (i : grid0.Coords)
    (a2 : Memref sig .tc .vmem S1x1x24x192x192 .f32) (h2 : a2.IsWhole) (a3 : Memref sig .tc .vmem S1x1x24x192x192 .f32) (h3 : a3.IsWhole)
    (a4 : Memref sig .tc .vmem S1x1x1 .f32) (h4 : a4.IsWhole) (a5 : Memref sig .tc .vmem S1x1x1 .f32) (h5 : a5.IsWhole) (a6 : Memref sig .tc .vmem S1x1x1 .f32) (h6 : a6.IsWhole) (a7 : Memref sig .tc .vmem S1x1x1 .f32) (h7 : a7.IsWhole) (a8 : Memref sig .tc .vmem S1x1x1 .f32) (h8 : a8.IsWhole)
    (hc1 : ¬k0_cond1 i = 1#1) (hc2 : k0_cond2 i = 1#1)
    (x0 x1 : Vec F S1x1x24x192x192 .f32)
    (s4 s5 s6 s7 s8 : Vec F S1x1x1 .f32) :
    Σ' (L4 : List (View.Piece (Elt F) S1x1x1 .f32)), Σ' (L5 : List (View.Piece (Elt F) S1x1x1 .f32)), Σ' (L6 : List (View.Piece (Elt F) S1x1x1 .f32)), Σ' (L7 : List (View.Piece (Elt F) S1x1x1 .f32)), { L8 : List (View.Piece (Elt F) S1x1x1 .f32) //
      ∀ (E : Set ℕ) (K : PUnit → sProp 𝕄),
        iprop(owns (c : Thread nD τ) a2 fullShare x0 ∗ owns (c : Thread nD τ) a3 fullShare x1 ∗ owns (c : Thread nD τ) a4 fullShare s4 ∗ owns (c : Thread nD τ) a5 fullShare s5 ∗ owns (c : Thread nD τ) a6 fullShare s6 ∗ owns (c : Thread nD τ) a7 fullShare s7 ∗ owns (c : Thread nD τ) a8 fullShare s8
            ∗ (iprop(owns (c : Thread nD τ) a2 fullShare x0 ∗ owns (c : Thread nD τ) a3 fullShare x1 ∗ (∃ f, a4.view.loc (c : Thread nD τ) ↦[a4.view.set]{fullShare} a4.view.writes (Elt F) f L4) ∗ (∃ f, a5.view.loc (c : Thread nD τ) ↦[a5.view.set]{fullShare} a5.view.writes (Elt F) f L5) ∗ (∃ f, a6.view.loc (c : Thread nD τ) ↦[a6.view.set]{fullShare} a6.view.writes (Elt F) f L6) ∗ (∃ f, a7.view.loc (c : Thread nD τ) ↦[a7.view.set]{fullShare} a7.view.writes (Elt F) f L7) ∗ (∃ f, a8.view.loc (c : Thread nD τ) ↦[a8.view.set]{fullShare} a8.view.writes (Elt F) f L8)) -∗ K ⟨⟩))
          ⊢ wp frame (wpE (defs₀ (F := F)) Variants.none c none) E (cc0__ncc_sums_kernel i a2 h2 a3 h3 a4 h4 a5 h5 a6 h6 a7 h7 a8 h8) K } := by
  refine ⟨?_, ?_, ?_, ?_, ?_, fun E K => ?run⟩
  case run =>
    simp only [cc0__ncc_sums_kernel_eq_skeleton]; unfold cc0__ncc_sums_kernel_skel
    simp only [k0_part1_eq_skeleton]; unfold k0_part1_skel
    unfold owns
    iintro ⟨⟨%f0, %hf0, H0⟩, ⟨%f1, %hf1, H1⟩, ⟨%f4, %hf4, H4⟩, ⟨%f5, %hf5, H5⟩, ⟨%f6, %hf6, H6⟩, ⟨%f7, %hf7, H7⟩, ⟨%f8, %hf8, H8⟩, Hk⟩
    obtain rfl := h2.eq_unread hf0; obtain rfl := h3.eq_unread hf1
    obtain rfl := h4.eq_unread hf4; obtain rfl := h5.eq_unread hf5; obtain rfl := h6.eq_unread hf6; obtain rfl := h7.eq_unread hf7; obtain rfl := h8.eq_unread hf8
    sl_exec (disch := first | exact hc1 | exact hc2)
    sl_step
    iapply Hk
    isplitl [H0]
    · iexists _; isplitr; · ipureintro; exact h2.read_unread _
      iexact H0
    isplitl [H1]
    · iexists _; isplitr; · ipureintro; exact h3.read_unread _
      iexact H1
    isplitl [H4]; · iexists _; iexact H4
    isplitl [H5]; · iexists _; iexact H5
    isplitl [H6]; · iexists _; iexact H6
    isplitl [H7]; · iexists _; iexact H7
    iexists _; iexact H8

end Cert.Kernel.Acc

end
-- ==== Proof.LibWhole.lean ====
/-
  Whole-buffer accesses through a view, over an abstract shape.

  A load through the rectangle at zero offsets of the shape's own sizes reads the view's contents; one unmasked
  store through that rectangle leaves its payload, whatever the buffer held; and a load through it of what one
  such store left reads the payload. Each is stated for any shape `S`, so that a use at a shape of large
  literal extents unifies the rectangle syntactically and never unfolds the sizes.
-/
import Idealize.ShloMosaic.Lib.Pipeline.FrameBody
import Idealize.ShloMosaic.Lib.Pipeline.Value

noncomputable section

namespace Cert.LibWhole

open Idealize.ShloMosaic

variable {Val : EltTy → Type} {sig : RefSig} {κ : Kind} {sp : Space} {S : Shape} {e : EltTy}

/-- A load of the whole shape at zero offsets reads what the view reads. -/
theorem readAt_whole (v : View sig κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld]; exact View.ld_unit_zero h inb _

/-- One unmasked store of the whole shape at zero offsets leaves its payload. -/
theorem read_writes_whole [∀ e, Nonempty (Val e)] (v : View sig κ sp S e) (f : v.ty.Contents Val) {off : Fin S.rank → Nat}
    (h : off = fun _ => 0) (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩)]
  exact View.canon_unit_zero h inb w

end Cert.LibWhole

end
-- ==== Proof.BitsCases.lean ====
/-
  What each control case of the body leaves in each output cell, as a value.

  Every output cell receives exactly one store covering the whole (one-element) cell, so what the cell holds
  afterwards is that store's payload, whatever it held before. Each load in the payload reads a whole buffer, so it
  reads the buffer's contents. Hence:
    * at a first depth tile the cell ends holding the block's partial sum;
    * at a later depth tile it ends holding its previous contents plus the block's partial sum.
-/
import proofs.«133945_j64441689309643_2_alg».proof.Proof.BitsBody
import proofs.«133945_j64441689309643_2_alg».proof.Proof.LibWhole

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.LibWhole

theorem hz3 : (![0, 0, 0] : Fin 3 → Nat) = fun _ => 0 := funext fun a => by fin_cases a <;> rfl
theorem hz5 : (![0, 0, 0, 0, 0] : Fin 5 → Nat) = fun _ => 0 := funext fun a => by fin_cases a <;> rfl

/-- The five partial sums of one pair of input blocks (`x0` a block of y_pred, `x1` of y_true). -/
abbrev part4 (x0 x1 : Vec F S1x1x24x192x192 .f32) : Vec F S1x1x1 .f32 := k0_pay6 x1  -- Σ y_true
abbrev part5 (x0 x1 : Vec F S1x1x24x192x192 .f32) : Vec F S1x1x1 .f32 := k0_pay7 x0  -- Σ y_pred
abbrev part6 (x0 x1 : Vec F S1x1x24x192x192 .f32) : Vec F S1x1x1 .f32 := k0_pay8 x1  -- Σ y_true²
abbrev part7 (x0 x1 : Vec F S1x1x24x192x192 .f32) : Vec F S1x1x1 .f32 := k0_pay9 x0  -- Σ y_pred²
abbrev part8 (x0 x1 : Vec F S1x1x24x192x192 .f32) : Vec F S1x1x1 .f32 := k0_pay10 x0 x1  -- Σ y_true·y_pred

/-- First tile, Σ y_true: the cell ends at the block's partial sum. -/
theorem first_val4 (c : Dev nD) (i : grid0.Coords)
    (a2 : Memref sig .tc .vmem S1x1x24x192x192 .f32) (h2 : a2.IsWhole) (a3 : Memref sig .tc .vmem S1x1x24x192x192 .f32) (h3 : a3.IsWhole)
    (a4 : Memref sig .tc .vmem S1x1x1 .f32) (h4 : a4.IsWhole) (a5 : Memref sig .tc .vmem S1x1x1 .f32) (h5 : a5.IsWhole) (a6 : Memref sig .tc .vmem S1x1x1 .f32) (h6 : a6.IsWhole) (a7 : Memref sig .tc .vmem S1x1x1 .f32) (h7 : a7.IsWhole) (a8 : Memref sig .tc .vmem S1x1x1 .f32) (h8 : a8.IsWhole)
    (hc1 : k0_cond1 i = 1#1) (hc2 : ¬k0_cond2 i = 1#1) (x0 x1 : Vec F S1x1x24x192x192 .f32)
    (v : View sig .tc .vmem S1x1x1 .f32) (f : v.ty.Contents (Elt F)) :
    v.read (Elt F) (v.writes (Elt F) f (runFirst c i a2 h2 a3 h3 a4 h4 a5 h5 a6 h6 a7 h7 a8 h8 hc1 hc2 x0 x1).1) = part4 x0 x1 := by
  unfold runFirst
  refine (read_writes_whole v f hz3 _ _).trans ?_
  rw [readAt_whole a3.view _ hz5, h3.read_unread]

/-- Later tile, Σ y_true: the cell ends at its previous contents plus the block's partial sum. -/
theorem later_val4 (c : Dev nD) (i : grid0.Coords)
    (a2 : Memref sig .tc .vmem S1x1x24x192x192 .f32) (h2 : a2.IsWhole) (a3 : Memref sig .tc .vmem S1x1x24x192x192 .f32) (h3 : a3.IsWhole)
    (a4 : Memref sig .tc .vmem S1x1x1 .f32) (h4 : a4.IsWhole) (a5 : Memref sig .tc .vmem S1x1x1 .f32) (h5 : a5.IsWhole) (a6 : Memref sig .tc .vmem S1x1x1 .f32) (h6 : a6.IsWhole) (a7 : Memref sig .tc .vmem S1x1x1 .f32) (h7 : a7.IsWhole) (a8 : Memref sig .tc .vmem S1x1x1 .f32) (h8 : a8.IsWhole)
    (hc1 : ¬k0_cond1 i = 1#1) (hc2 : k0_cond2 i = 1#1) (x0 x1 : Vec F S1x1x24x192x192 .f32) (s4 s5 s6 s7 s8 : Vec F S1x1x1 .f32)
    (v : View sig .tc .vmem S1x1x1 .f32) (f : v.ty.Contents (Elt F)) :
    v.read (Elt F) (v.writes (Elt F) f (runLater c i a2 h2 a3 h3 a4 h4 a5 h5 a6 h6 a7 h7 a8 h8 hc1 hc2 x0 x1 s4 s5 s6 s7 s8).1) = addf s4 (part4 x0 x1) := by
  unfold runLater
  refine (read_writes_whole v f hz3 _ _).trans ?_
  rw [readAt_whole a3.view _ hz5, readAt_whole a4.view _ hz3, h3.read_unread, h4.read_unread]
  unfold k0_pay1
  rw [shapeCast_self]

/-- First tile, Σ y_pred: the cell ends at the block's partial sum. -/
theorem first_val5 (c : Dev nD) (i : grid0.Coords)
    (a2 : Memref sig .tc .vmem S1x1x24x192x192 .f32) (h2 : a2.IsWhole) (a3 : Memref sig .tc .vmem S1x1x24x192x192 .f32) (h3 : a3.IsWhole)
    (a4 : Memref sig .tc .vmem S1x1x1 .f32) (h4 : a4.IsWhole) (a5 : Memref sig .tc .vmem S1x1x1 .f32) (h5 : a5.IsWhole) (a6 : Memref sig .tc .vmem S1x1x1 .f32) (h6 : a6.IsWhole) (a7 : Memref sig .tc .vmem S1x1x1 .f32) (h7 : a7.IsWhole) (a8 : Memref sig .tc .vmem S1x1x1 .f32) (h8 : a8.IsWhole)
    (hc1 : k0_cond1 i = 1#1) (hc2 : ¬k0_cond2 i = 1#1) (x0 x1 : Vec F S1x1x24x192x192 .f32)
    (v : View sig .tc .vmem S1x1x1 .f32) (f : v.ty.Contents (Elt F)) :
    v.read (Elt F) (v.writes (Elt F) f (runFirst c i a2 h2 a3 h3 a4 h4 a5 h5 a6 h6 a7 h7 a8 h8 hc1 hc2 x0 x1).2.1) = part5 x0 x1 := by
  unfold runFirst
  refine (read_writes_whole v f hz3 _ _).trans ?_
  rw [readAt_whole a2.view _ hz5, h2.read_unread]

/-- Later tile, Σ y_pred: the cell ends at its previous contents plus the block's partial sum. -/
theorem later_val5 (c : Dev nD) (i : grid0.Coords)
    (a2 : Memref sig .tc .vmem S1x1x24x192x192 .f32) (h2 : a2.IsWhole) (a3 : Memref sig .tc .vmem S1x1x24x192x192 .f32) (h3 : a3.IsWhole)
    (a4 : Memref sig .tc .vmem S1x1x1 .f32) (h4 : a4.IsWhole) (a5 : Memref sig .tc .vmem S1x1x1 .f32) (h5 : a5.IsWhole) (a6 : Memref sig .tc .vmem S1x1x1 .f32) (h6 : a6.IsWhole) (a7 : Memref sig .tc .vmem S1x1x1 .f32) (h7 : a7.IsWhole) (a8 : Memref sig .tc .vmem S1x1x1 .f32) (h8 : a8.IsWhole)
    (hc1 : ¬k0_cond1 i = 1#1) (hc2 : k0_cond2 i = 1#1) (x0 x1 : Vec F S1x1x24x192x192 .f32) (s4 s5 s6 s7 s8 : Vec F S1x1x1 .f32)
    (v : View sig .tc .vmem S1x1x1 .f32) (f : v.ty.Contents (Elt F)) :
    v.read (Elt F) (v.writes (Elt F) f (runLater c i a2 h2 a3 h3 a4 h4 a5 h5 a6 h6 a7 h7 a8 h8 hc1 hc2 x0 x1 s4 s5 s6 s7 s8).2.1) = addf s5 (part5 x0 x1) := by
  unfold runLater
  refine (read_writes_whole v f hz3 _ _).trans ?_
  rw [readAt_whole a2.view _ hz5, readAt_whole a5.view _ hz3, h2.read_unread, h5.read_unread]
  unfold k0_pay2
  rw [shapeCast_self]

/-- First tile, Σ y_true²: the cell ends at the block's partial sum. -/
theorem first_val6 (c : Dev nD) (i : grid0.Coords)
    (a2 : Memref sig .tc .vmem S1x1x24x192x192 .f32) (h2 : a2.IsWhole) (a3 : Memref sig .tc .vmem S1x1x24x192x192 .f32) (h3 : a3.IsWhole)
    (a4 : Memref sig .tc .vmem S1x1x1 .f32) (h4 : a4.IsWhole) (a5 : Memref sig .tc .vmem S1x1x1 .f32) (h5 : a5.IsWhole) (a6 : Memref sig .tc .vmem S1x1x1 .f32) (h6 : a6.IsWhole) (a7 : Memref sig .tc .vmem S1x1x1 .f32) (h7 : a7.IsWhole) (a8 : Memref sig .tc .vmem S1x1x1 .f32) (h8 : a8.IsWhole)
    (hc1 : k0_cond1 i = 1#1) (hc2 : ¬k0_cond2 i = 1#1) (x0 x1 : Vec F S1x1x24x192x192 .f32)
    (v : View sig .tc .vmem S1x1x1 .f32) (f : v.ty.Contents (Elt F)) :
    v.read (Elt F) (v.writes (Elt F) f (runFirst c i a2 h2 a3 h3 a4 h4 a5 h5 a6 h6 a7 h7 a8 h8 hc1 hc2 x0 x1).2.2.1) = part6 x0 x1 := by
  unfold runFirst
  refine (read_writes_whole v f hz3 _ _).trans ?_
  rw [readAt_whole a3.view _ hz5, h3.read_unread]

/-- Later tile, Σ y_true²: the cell ends at its previous contents plus the block's partial sum. -/
theorem later_val6 (c : Dev nD) (i : grid0.Coords)
    (a2 : Memref sig .tc .vmem S1x1x24x192x192 .f32) (h2 : a2.IsWhole) (a3 : Memref sig .tc .vmem S1x1x24x192x192 .f32) (h3 : a3.IsWhole)
    (a4 : Memref sig .tc .vmem S1x1x1 .f32) (h4 : a4.IsWhole) (a5 : Memref sig .tc .vmem S1x1x1 .f32) (h5 : a5.IsWhole) (a6 : Memref sig .tc .vmem S1x1x1 .f32) (h6 : a6.IsWhole) (a7 : Memref sig .tc .vmem S1x1x1 .f32) (h7 : a7.IsWhole) (a8 : Memref sig .tc .vmem S1x1x1 .f32) (h8 : a8.IsWhole)
    (hc1 : ¬k0_cond1 i = 1#1) (hc2 : k0_cond2 i = 1#1) (x0 x1 : Vec F S1x1x24x192x192 .f32) (s4 s5 s6 s7 s8 : Vec F S1x1x1 .f32)
    (v : View sig .tc .vmem S1x1x1 .f32) (f : v.ty.Contents (Elt F)) :
    v.read (Elt F) (v.writes (Elt F) f (runLater c i a2 h2 a3 h3 a4 h4 a5 h5 a6 h6 a7 h7 a8 h8 hc1 hc2 x0 x1 s4 s5 s6 s7 s8).2.2.1) = addf s6 (part6 x0 x1) := by
  unfold runLater
  refine (read_writes_whole v f hz3 _ _).trans ?_
  rw [readAt_whole a3.view _ hz5, readAt_whole a6.view _ hz3, h3.read_unread, h6.read_unread]
  unfold k0_pay3
  rw [shapeCast_self]

/-- First tile, Σ y_pred²: the cell ends at the block's partial sum. -/
theorem first_val7 (c : Dev nD) (i : grid0.Coords)
    (a2 : Memref sig .tc .vmem S1x1x24x192x192 .f32) (h2 : a2.IsWhole) (a3 : Memref sig .tc .vmem S1x1x24x192x192 .f32) (h3 : a3.IsWhole)
    (a4 : Memref sig .tc .vmem S1x1x1 .f32) (h4 : a4.IsWhole) (a5 : Memref sig .tc .vmem S1x1x1 .f32) (h5 : a5.IsWhole) (a6 : Memref sig .tc .vmem S1x1x1 .f32) (h6 : a6.IsWhole) (a7 : Memref sig .tc .vmem S1x1x1 .f32) (h7 : a7.IsWhole) (a8 : Memref sig .tc .vmem S1x1x1 .f32) (h8 : a8.IsWhole)
    (hc1 : k0_cond1 i = 1#1) (hc2 : ¬k0_cond2 i = 1#1) (x0 x1 : Vec F S1x1x24x192x192 .f32)
    (v : View sig .tc .vmem S1x1x1 .f32) (f : v.ty.Contents (Elt F)) :
    v.read (Elt F) (v.writes (Elt F) f (runFirst c i a2 h2 a3 h3 a4 h4 a5 h5 a6 h6 a7 h7 a8 h8 hc1 hc2 x0 x1).2.2.2.1) = part7 x0 x1 := by
  unfold runFirst
  refine (read_writes_whole v f hz3 _ _).trans ?_
  rw [readAt_whole a2.view _ hz5, h2.read_unread]

/-- Later tile, Σ y_pred²: the cell ends at its previous contents plus the block's partial sum. -/
theorem later_val7 (c : Dev nD) (i : grid0.Coords)
    (a2 : Memref sig .tc .vmem S1x1x24x192x192 .f32) (h2 : a2.IsWhole) (a3 : Memref sig .tc .vmem S1x1x24x192x192 .f32) (h3 : a3.IsWhole)
    (a4 : Memref sig .tc .vmem S1x1x1 .f32) (h4 : a4.IsWhole) (a5 : Memref sig .tc .vmem S1x1x1 .f32) (h5 : a5.IsWhole) (a6 : Memref sig .tc .vmem S1x1x1 .f32) (h6 : a6.IsWhole) (a7 : Memref sig .tc .vmem S1x1x1 .f32) (h7 : a7.IsWhole) (a8 : Memref sig .tc .vmem S1x1x1 .f32) (h8 : a8.IsWhole)
    (hc1 : ¬k0_cond1 i = 1#1) (hc2 : k0_cond2 i = 1#1) (x0 x1 : Vec F S1x1x24x192x192 .f32) (s4 s5 s6 s7 s8 : Vec F S1x1x1 .f32)
    (v : View sig .tc .vmem S1x1x1 .f32) (f : v.ty.Contents (Elt F)) :
    v.read (Elt F) (v.writes (Elt F) f (runLater c i a2 h2 a3 h3 a4 h4 a5 h5 a6 h6 a7 h7 a8 h8 hc1 hc2 x0 x1 s4 s5 s6 s7 s8).2.2.2.1) = addf s7 (part7 x0 x1) := by
  unfold runLater
  refine (read_writes_whole v f hz3 _ _).trans ?_
  rw [readAt_whole a2.view _ hz5, readAt_whole a7.view _ hz3, h2.read_unread, h7.read_unread]
  unfold k0_pay4
  rw [shapeCast_self]

/-- First tile, Σ y_true·y_pred: the cell ends at the block's partial sum. -/
theorem first_val8 (c : Dev nD) (i : grid0.Coords)
    (a2 : Memref sig .tc .vmem S1x1x24x192x192 .f32) (h2 : a2.IsWhole) (a3 : Memref sig .tc .vmem S1x1x24x192x192 .f32) (h3 : a3.IsWhole)
    (a4 : Memref sig .tc .vmem S1x1x1 .f32) (h4 : a4.IsWhole) (a5 : Memref sig .tc .vmem S1x1x1 .f32) (h5 : a5.IsWhole) (a6 : Memref sig .tc .vmem S1x1x1 .f32) (h6 : a6.IsWhole) (a7 : Memref sig .tc .vmem S1x1x1 .f32) (h7 : a7.IsWhole) (a8 : Memref sig .tc .vmem S1x1x1 .f32) (h8 : a8.IsWhole)
    (hc1 : k0_cond1 i = 1#1) (hc2 : ¬k0_cond2 i = 1#1) (x0 x1 : Vec F S1x1x24x192x192 .f32)
    (v : View sig .tc .vmem S1x1x1 .f32) (f : v.ty.Contents (Elt F)) :
    v.read (Elt F) (v.writes (Elt F) f (runFirst c i a2 h2 a3 h3 a4 h4 a5 h5 a6 h6 a7 h7 a8 h8 hc1 hc2 x0 x1).2.2.2.2.1) = part8 x0 x1 := by
  unfold runFirst
  refine (read_writes_whole v f hz3 _ _).trans ?_
  rw [readAt_whole a2.view _ hz5, readAt_whole a3.view _ hz5, h2.read_unread, h3.read_unread]

/-- Later tile, Σ y_true·y_pred: the cell ends at its previous contents plus the block's partial sum. -/
theorem later_val8 (c : Dev nD) (i : grid0.Coords)
    (a2 : Memref sig .tc .vmem S1x1x24x192x192 .f32) (h2 : a2.IsWhole) (a3 : Memref sig .tc .vmem S1x1x24x192x192 .f32) (h3 : a3.IsWhole)
    (a4 : Memref sig .tc .vmem S1x1x1 .f32) (h4 : a4.IsWhole) (a5 : Memref sig .tc .vmem S1x1x1 .f32) (h5 : a5.IsWhole) (a6 : Memref sig .tc .vmem S1x1x1 .f32) (h6 : a6.IsWhole) (a7 : Memref sig .tc .vmem S1x1x1 .f32) (h7 : a7.IsWhole) (a8 : Memref sig .tc .vmem S1x1x1 .f32) (h8 : a8.IsWhole)
    (hc1 : ¬k0_cond1 i = 1#1) (hc2 : k0_cond2 i = 1#1) (x0 x1 : Vec F S1x1x24x192x192 .f32) (s4 s5 s6 s7 s8 : Vec F S1x1x1 .f32)
    (v : View sig .tc .vmem S1x1x1 .f32) (f : v.ty.Contents (Elt F)) :
    v.read (Elt F) (v.writes (Elt F) f (runLater c i a2 h2 a3 h3 a4 h4 a5 h5 a6 h6 a7 h7 a8 h8 hc1 hc2 x0 x1 s4 s5 s6 s7 s8).2.2.2.2.1) = addf s8 (part8 x0 x1) := by
  unfold runLater
  refine (read_writes_whole v f hz3 _ _).trans ?_
  rw [readAt_whole a2.view _ hz5, readAt_whole a3.view _ hz5, readAt_whole a8.view _ hz3, h2.read_unread, h3.read_unread, h8.read_unread]
  unfold k0_pay5
  rw [shapeCast_self]

end Cert.Kernel.Acc

end
-- ==== Proof.BitsFrame.lean ====
/-
  The frame of the kernel's one region: what every staging buffer holds after the body at every grid point,
  and from it that the program runs to its end, faults nowhere, and leaves its two argument arrays unchanged.

  Point t = 8·b + d handles depth tile d of batch element b. After the body at t, each input buffer still holds its
  block, and each of the five output cells holds the RUNNING SUM of the partial sums of the tiles 0 … d of batch
  element b: at d = 0 the cell is overwritten with the tile's partial sum, at d ≠ 0 the tile's partial sum is added
  to what the previous point left (the cell is written back to its array only after d = 7, so between two points of
  one batch element nothing else touches it).
-/
import proofs.«133945_j64441689309643_2_alg».proof.Proof.BitsCases

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The running sums -/

/-- Grid point number `n` (point 0 for a number beyond the grid). -/
def pt (n : ℕ) : Fin cfg0.N := if h : n < cfg0.N then ⟨n, h⟩ else ⟨0, by rw [show cfg0.N = 32 from N_0]; decide⟩

theorem pt_val (t : Fin cfg0.N) : pt t.val = t := dif_pos t.isLt

/-- The running sum of per-point partial sums `P`: restarted at every first depth tile (n ≡ 0 mod 8), added to otherwise. -/
def accum (P : Fin cfg0.N → Vec F S1x1x1 .f32) : ℕ → Vec F S1x1x1 .f32
  | 0 => P (pt 0)
  | n + 1 => if (n + 1) % 8 = 0 then P (pt (n + 1)) else addf (accum P n) (P (pt (n + 1)))

theorem accum_first (P : Fin cfg0.N → Vec F S1x1x1 .f32) (t : Fin cfg0.N) (h : t.val % 8 = 0) : accum P t.val = P t := by
  obtain ⟨n, hn⟩ := t
  cases n with
  | zero => exact congrArg P (pt_val ⟨0, hn⟩)
  | succ n =>
    show (if (n + 1) % 8 = 0 then P (pt (n + 1)) else addf (accum P n) (P (pt (n + 1)))) = _
    rw [if_pos h]; exact congrArg P (pt_val ⟨n + 1, hn⟩)

theorem accum_later (P : Fin cfg0.N → Vec F S1x1x1 .f32) (t : Fin cfg0.N) (h : ¬t.val % 8 = 0) :
    accum P t.val = addf (accum P (t.val - 1)) (P t) := by
  obtain ⟨n, hn⟩ := t
  cases n with
  | zero => exact absurd (Nat.zero_mod _) h
  | succ n =>
    show (if (n + 1) % 8 = 0 then P (pt (n + 1)) else addf (accum P n) (P (pt (n + 1)))) = _
    rw [if_neg h]; exact congrArg (addf (accum P n)) (congrArg P (pt_val ⟨n + 1, hn⟩))

/-- The five partial sums of the input blocks at point `t`. -/
def P4 (c : Dev nD) (t : Fin cfg0.N) : Vec F S1x1x1 .f32 := part4 (iblk m c 0 t) (iblk m c 1 t)
def P5 (c : Dev nD) (t : Fin cfg0.N) : Vec F S1x1x1 .f32 := part5 (iblk m c 0 t) (iblk m c 1 t)
def P6 (c : Dev nD) (t : Fin cfg0.N) : Vec F S1x1x1 .f32 := part6 (iblk m c 0 t) (iblk m c 1 t)
def P7 (c : Dev nD) (t : Fin cfg0.N) : Vec F S1x1x1 .f32 := part7 (iblk m c 0 t) (iblk m c 1 t)
def P8 (c : Dev nD) (t : Fin cfg0.N) : Vec F S1x1x1 .f32 := part8 (iblk m c 0 t) (iblk m c 1 t)

/-! ## The staging buffers at a point -/

abbrev ms0 (t : Fin cfg0.N) : Memref sig .tc .vmem S1x1x24x192x192 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x24x192x192 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1x1 .f32 := win0_6.stage (cfg0.slots t 6)
abbrev hs6 (t : Fin cfg0.N) : (ms6 t).IsWhole := hstage0_6 ((cfg0.slots t 6).cast nbuf0_6)

/-! ## The proof data -/

/-- The arrays as the region finds them; after the body at point `t` each input buffer at its block, each output cell
    at its running sum; the invariant is the rest of the core's scoped memory, untouched; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accum (P4 m c) t.val
    | ⟨3, _⟩ => accum (P5 m c) t.val
    | ⟨4, _⟩ => accum (P6 m c) t.val
    | ⟨5, _⟩ => accum (P7 m c) t.val
    | ⟨6, _⟩ => accum (P8 m c) t.val
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = accum (P4 m c) t.val := by dsimp only [dats]
theorem after3 (c : Dev nD) (t : Fin cfg0.N) : (dats m 0 c).after 3 t = accum (P5 m c) t.val := by dsimp only [dats]
theorem after4 (c : Dev nD) (t : Fin cfg0.N) : (dats m 0 c).after 4 t = accum (P6 m c) t.val := by dsimp only [dats]
theorem after5 (c : Dev nD) (t : Fin cfg0.N) : (dats m 0 c).after 5 t = accum (P7 m c) t.val := by dsimp only [dats]
theorem after6 (c : Dev nD) (t : Fin cfg0.N) : (dats m 0 c).after 6 t = accum (P8 m c) t.val := by dsimp only [dats]

/-- Each input buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- At a later depth tile output cell 2 holds what the point before left: the point is not the first, the cell was not
    written back in between (write-backs follow the tiles d = 7 only), and it is stored into at every point. -/
theorem before2_later (c : Dev nD) (t : Fin cfg0.N) (h0 : ¬t.val % 8 = 0) (d) :
    (dats m 0 c).before 2 t d = accum (P4 m c) (t.val - 1) := by
  have hN : t.val < 32 := lt_of_lt_of_eq t.isLt (show cfg0.N = 32 from N_0)
  rw [Dat.before_out_kept _ 2 rfl t (by omega) (Bool.eq_false_iff.mpr fun h => by have := (flush0_2 _).mp h; dsimp only at this; omega)
    (live 2) (fun _ _ => rfl)]
  dsimp only [dats]

/-- At a later depth tile output cell 3 holds what the point before left: the point is not the first, the cell was not
    written back in between (write-backs follow the tiles d = 7 only), and it is stored into at every point. -/
theorem before3_later (c : Dev nD) (t : Fin cfg0.N) (h0 : ¬t.val % 8 = 0) (d) :
    (dats m 0 c).before 3 t d = accum (P5 m c) (t.val - 1) := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    (live 3) (fun _ _ => rfl)]
  dsimp only [dats]

/-- At a later depth tile output cell 4 holds what the point before left: the point is not the first, the cell was not
    written back in between (write-backs follow the tiles d = 7 only), and it is stored into at every point. -/
theorem before4_later (c : Dev nD) (t : Fin cfg0.N) (h0 : ¬t.val % 8 = 0) (d) :
    (dats m 0 c).before 4 t d = accum (P6 m c) (t.val - 1) := by
  have hN : t.val < 32 := lt_of_lt_of_eq t.isLt (show cfg0.N = 32 from N_0)
  rw [Dat.before_out_kept _ 4 rfl t (by omega) (Bool.eq_false_iff.mpr fun h => by have := (flush0_4 _).mp h; dsimp only at this; omega)
    (live 4) (fun _ _ => rfl)]
  dsimp only [dats]

/-- At a later depth tile output cell 5 holds what the point before left: the point is not the first, the cell was not
    written back in between (write-backs follow the tiles d = 7 only), and it is stored into at every point. -/
theorem before5_later (c : Dev nD) (t : Fin cfg0.N) (h0 : ¬t.val % 8 = 0) (d) :
    (dats m 0 c).before 5 t d = accum (P7 m c) (t.val - 1) := by
  have hN : t.val < 32 := lt_of_lt_of_eq t.isLt (show cfg0.N = 32 from N_0)
  rw [Dat.before_out_kept _ 5 rfl t (by omega) (Bool.eq_false_iff.mpr fun h => by have := (flush0_5 _).mp h; dsimp only at this; omega)
    (live 5) (fun _ _ => rfl)]
  dsimp only [dats]

/-- At a later depth tile output cell 6 holds what the point before left: the point is not the first, the cell was not
    written back in between (write-backs follow the tiles d = 7 only), and it is stored into at every point. -/
theorem before6_later (c : Dev nD) (t : Fin cfg0.N) (h0 : ¬t.val % 8 = 0) (d) :
    (dats m 0 c).before 6 t d = accum (P8 m c) (t.val - 1) := by
  have hN : t.val < 32 := lt_of_lt_of_eq t.isLt (show cfg0.N = 32 from N_0)
  rw [Dat.before_out_kept _ 6 rfl t (by omega) (Bool.eq_false_iff.mpr fun h => by have := (flush0_6 _).mp h; dsimp only at this; omega)
    (live 6) (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 4000000 in
/-- The body at any point: the input buffers hold their blocks; the point is a first depth tile or a later one; in the
    second case each output cell holds the running sum the point before left; the matching run of the body applies,
    and what it leaves in each cell is the running sum at this point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3, after4, after5, after6]
  by_cases h0 : t.val % 8 = 0
  · rw [accum_first (P4 m c) t h0, accum_first (P5 m c) t h0, accum_first (P6 m c) t h0, accum_first (P7 m c) t h0, accum_first (P8 m c) t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runFirst c (grid0.coords t) (ms0 t) (hs0 t) (ms1 t) (hs1 t) (ms2 t) (hs2 t) (ms3 t) (hs3 t) (ms4 t) (hs4 t) (ms5 t) (hs5 t) (ms6 t) (hs6 t)
      ((first_iff t).mpr h0) (fun h => (later_iff t).mp h h0) (iblk m c 0 t) (iblk m c 1 t)).2.2.2.2.2 Set.univ _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [H6]; · iexists _; iexact H6
    iintro ⟨H0, H1, ⟨%e2, H2⟩, ⟨%e3, H3⟩, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]
    · unfold owns; iexists _; isplitr; swap; · iexact H2
      ipureintro
      exact first_val4 c (grid0.coords t) (ms0 t) (hs0 t) (ms1 t) (hs1 t) (ms2 t) (hs2 t) (ms3 t) (hs3 t) (ms4 t) (hs4 t) (ms5 t) (hs5 t) (ms6 t) (hs6 t)
        ((first_iff t).mpr h0) (fun h => (later_iff t).mp h h0) (iblk m c 0 t) (iblk m c 1 t) (ms2 t).view e2
    isplitl [H3]
    · unfold owns; iexists _; isplitr; swap; · iexact H3
      ipureintro
      exact first_val5 c (grid0.coords t) (ms0 t) (hs0 t) (ms1 t) (hs1 t) (ms2 t) (hs2 t) (ms3 t) (hs3 t) (ms4 t) (hs4 t) (ms5 t) (hs5 t) (ms6 t) (hs6 t)
        ((first_iff t).mpr h0) (fun h => (later_iff t).mp h h0) (iblk m c 0 t) (iblk m c 1 t) (ms3 t).view e3
    isplitl [H4]
    · unfold owns; iexists _; isplitr; swap; · iexact H4
      ipureintro
      exact first_val6 c (grid0.coords t) (ms0 t) (hs0 t) (ms1 t) (hs1 t) (ms2 t) (hs2 t) (ms3 t) (hs3 t) (ms4 t) (hs4 t) (ms5 t) (hs5 t) (ms6 t) (hs6 t)
        ((first_iff t).mpr h0) (fun h => (later_iff t).mp h h0) (iblk m c 0 t) (iblk m c 1 t) (ms4 t).view e4
    isplitl [H5]
    · unfold owns; iexists _; isplitr; swap; · iexact H5
      ipureintro
      exact first_val7 c (grid0.coords t) (ms0 t) (hs0 t) (ms1 t) (hs1 t) (ms2 t) (hs2 t) (ms3 t) (hs3 t) (ms4 t) (hs4 t) (ms5 t) (hs5 t) (ms6 t) (hs6 t)
        ((first_iff t).mpr h0) (fun h => (later_iff t).mp h h0) (iblk m c 0 t) (iblk m c 1 t) (ms5 t).view e5
    · unfold owns; iexists _; isplitr; swap; · iexact H6
      ipureintro
      exact first_val8 c (grid0.coords t) (ms0 t) (hs0 t) (ms1 t) (hs1 t) (ms2 t) (hs2 t) (ms3 t) (hs3 t) (ms4 t) (hs4 t) (ms5 t) (hs5 t) (ms6 t) (hs6 t)
        ((first_iff t).mpr h0) (fun h => (later_iff t).mp h h0) (iblk m c 0 t) (iblk m c 1 t) (ms6 t).view e6
  · rw [accum_later (P4 m c) t h0, accum_later (P5 m c) t h0, accum_later (P6 m c) t h0, accum_later (P7 m c) t h0, accum_later (P8 m c) t h0]
    simp only [before2_later m c t h0, before3_later m c t h0, before4_later m c t h0, before5_later m c t h0, before6_later m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runLater c (grid0.coords t) (ms0 t) (hs0 t) (ms1 t) (hs1 t) (ms2 t) (hs2 t) (ms3 t) (hs3 t) (ms4 t) (hs4 t) (ms5 t) (hs5 t) (ms6 t) (hs6 t)
      (fun h => h0 ((first_iff t).mp h)) ((later_iff t).mpr h0) (iblk m c 0 t) (iblk m c 1 t)
      (accum (P4 m c) (t.val - 1)) (accum (P5 m c) (t.val - 1)) (accum (P6 m c) (t.val - 1)) (accum (P7 m c) (t.val - 1)) (accum (P8 m c) (t.val - 1))).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, ⟨%e2, H2⟩, ⟨%e3, H3⟩, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]
    · unfold owns; iexists _; isplitr; swap; · iexact H2
      ipureintro
      exact later_val4 c (grid0.coords t) (ms0 t) (hs0 t) (ms1 t) (hs1 t) (ms2 t) (hs2 t) (ms3 t) (hs3 t) (ms4 t) (hs4 t) (ms5 t) (hs5 t) (ms6 t) (hs6 t)
        (fun h => h0 ((first_iff t).mp h)) ((later_iff t).mpr h0) (iblk m c 0 t) (iblk m c 1 t)
        (accum (P4 m c) (t.val - 1)) (accum (P5 m c) (t.val - 1)) (accum (P6 m c) (t.val - 1)) (accum (P7 m c) (t.val - 1)) (accum (P8 m c) (t.val - 1)) (ms2 t).view e2
    isplitl [H3]
    · unfold owns; iexists _; isplitr; swap; · iexact H3
      ipureintro
      exact later_val5 c (grid0.coords t) (ms0 t) (hs0 t) (ms1 t) (hs1 t) (ms2 t) (hs2 t) (ms3 t) (hs3 t) (ms4 t) (hs4 t) (ms5 t) (hs5 t) (ms6 t) (hs6 t)
        (fun h => h0 ((first_iff t).mp h)) ((later_iff t).mpr h0) (iblk m c 0 t) (iblk m c 1 t)
        (accum (P4 m c) (t.val - 1)) (accum (P5 m c) (t.val - 1)) (accum (P6 m c) (t.val - 1)) (accum (P7 m c) (t.val - 1)) (accum (P8 m c) (t.val - 1)) (ms3 t).view e3
    isplitl [H4]
    · unfold owns; iexists _; isplitr; swap; · iexact H4
      ipureintro
      exact later_val6 c (grid0.coords t) (ms0 t) (hs0 t) (ms1 t) (hs1 t) (ms2 t) (hs2 t) (ms3 t) (hs3 t) (ms4 t) (hs4 t) (ms5 t) (hs5 t) (ms6 t) (hs6 t)
        (fun h => h0 ((first_iff t).mp h)) ((later_iff t).mpr h0) (iblk m c 0 t) (iblk m c 1 t)
        (accum (P4 m c) (t.val - 1)) (accum (P5 m c) (t.val - 1)) (accum (P6 m c) (t.val - 1)) (accum (P7 m c) (t.val - 1)) (accum (P8 m c) (t.val - 1)) (ms4 t).view e4
    isplitl [H5]
    · unfold owns; iexists _; isplitr; swap; · iexact H5
      ipureintro
      exact later_val7 c (grid0.coords t) (ms0 t) (hs0 t) (ms1 t) (hs1 t) (ms2 t) (hs2 t) (ms3 t) (hs3 t) (ms4 t) (hs4 t) (ms5 t) (hs5 t) (ms6 t) (hs6 t)
        (fun h => h0 ((first_iff t).mp h)) ((later_iff t).mpr h0) (iblk m c 0 t) (iblk m c 1 t)
        (accum (P4 m c) (t.val - 1)) (accum (P5 m c) (t.val - 1)) (accum (P6 m c) (t.val - 1)) (accum (P7 m c) (t.val - 1)) (accum (P8 m c) (t.val - 1)) (ms5 t).view e5
    · unfold owns; iexists _; isplitr; swap; · iexact H6
      ipureintro
      exact later_val8 c (grid0.coords t) (ms0 t) (hs0 t) (ms1 t) (hs1 t) (ms2 t) (hs2 t) (ms3 t) (hs3 t) (ms4 t) (hs4 t) (ms5 t) (hs5 t) (ms6 t) (hs6 t)
        (fun h => h0 ((first_iff t).mp h)) ((later_iff t).mpr h0) (iblk m c 0 t) (iblk m c 1 t)
        (accum (P4 m c) (t.val - 1)) (accum (P5 m c) (t.val - 1)) (accum (P6 m c) (t.val - 1)) (accum (P7 m c) (t.val - 1)) (accum (P8 m c) (t.val - 1)) (ms6 t).view e6

end Cert.Kernel.Acc

end
-- ==== Proof.BitsRun.lean ====
/-
  From the body at every point to the whole program: the library's obligation for the region's body, the run of the
  program (the region, then the host operations after it), and the frame: the program runs to its end, faults
  nowhere, and leaves its two argument arrays unchanged.
-/
import proofs.«133945_j64441689309643_2_alg».proof.Proof.BitsFrame

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No output cell is idle at any grid coordinate (the same fact, over the configuration's printed idle table). -/
theorem live' : ∀ (w : Fin 7) (i : grid0.Coords), idle0 w i = false := live

set_option maxHeartbeats 4000000 in
/-- The library's body obligation, at every point: no window is idle anywhere, so every buffer is handed back at what the
    body leaves in it; the body the pipeline calls at point `t` is the kernel function at the point's coordinates and
    staging buffers; and that is what `sound_body` runs. -/
theorem body_obligation (c : Dev nD) : BodyObligation (dats (F := F) m 0 c) (defs₀ (F := F)) Variants.none () Set.univ := fun t => by
  rw [bigSep_W0, bigSep_W0]
  simp only [live, live']
  rw [show idle0 2 (grid0.coords t) = false from live' 2 _]
  dsimp only
  have e : defs₀ (F := F) Proc.tc (0 : Fin 1) (t, cfg0.slots t) = bodyAt0 t := by
    unfold defs₀
    rw [Defs.onTc_tc]
  rw [e]
  exact sound_body m c t

/-! ## The run and the frame -/

set_option backward.isDefEq.respectTransparency.types false in
/-- Every weakly fair execution of the program terminates, and in every final state each array of the region holds
    what the proof data computes, the host operations after the region applied on top. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to its end, faults nowhere, and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Acc

end
-- ==== Proof.IdealBody.lean ====
/-
  The kernel's body at one grid point, run on whole staging buffers, in each of its two control cases.

  The grid is 4 batch elements by 8 depth tiles, point t = 8·b + d. The body loads the two input blocks, forms
  five partial sums of the block (Σ y_true, Σ y_pred, Σ y_true², Σ y_pred², Σ y_true·y_pred), and then
    * at the first depth tile of a batch element (d = 0) stores each partial sum into its output cell;
    * at every later tile (d ≠ 0) loads the cell, adds the partial sum, and stores the result back.
  Exactly one of the two branches is taken at every point, so no output cell is ever left untouched.
  Each run records, per output cell, the list of stores made into it; the lists are found by running the body.
-/
import proofs.«133945_j64441689309643_2_alg».proof.Proof.Gen.KernelIdeal.Skeleton
import proofs.«133945_j64441689309643_2_alg».proof.Proof.Gen.KernelIdeal.Frame

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch (store the partial sums) is taken exactly at the first depth tile of each batch element. -/
theorem first_iff : ∀ t : Fin cfg0.N, k0_cond1 (grid0.coords t) = 1#1 ↔ t.val % 8 = 0 :=
  (by decide +kernel : ∀ t : Fin grid0.N, k0_cond1 (grid0.coords t) = 1#1 ↔ t.val % 8 = 0)

/-- The second branch (add the partial sums to the cells) is taken exactly at the other seven depth tiles. -/
theorem later_iff : ∀ t : Fin cfg0.N, k0_cond2 (grid0.coords t) = 1#1 ↔ ¬t.val % 8 = 0 :=
  (by decide +kernel : ∀ t : Fin grid0.N, k0_cond2 (grid0.coords t) = 1#1 ↔ ¬t.val % 8 = 0)

/-- One of the two branches is taken at every grid coordinate: an output cell is stored into at every point. -/
theorem live : ∀ (w : Fin cfg0.W) (i : grid0.Coords), cfg0.idle w i = false := by decide +kernel

set_option maxHeartbeats 4000000 in
/-- The body at a first depth tile (d = 0): the input buffers hold `x0`, `x1`, the output cells hold anything; it ends with the inputs as they were and each output cell overwritten by the stores listed in `L4 … L8`. -/
noncomputable def runFirst (c : Dev nD) (i : grid0.Coords)
    (a2 : Memref sig .tc .vmem S1x1x24x192x192 .f32) (h2 : a2.IsWhole) (a3 : Memref sig .tc .vmem S1x1x24x192x192 .f32) (h3 : a3.IsWhole)
    (a4 : Memref sig .tc .vmem S1x1x1 .f32) (h4 : a4.IsWhole) (a5 : Memref sig .tc .vmem S1x1x1 .f32) (h5 : a5.IsWhole) (a6 : Memref sig .tc .vmem S1x1x1 .f32) (h6 : a6.IsWhole) (a7 : Memref sig .tc .vmem S1x1x1 .f32) (h7 : a7.IsWhole) (a8 : Memref sig .tc .vmem S1x1x1 .f32) (h8 : a8.IsWhole)
    (hc1 : k0_cond1 i = 1#1) (hc2 : ¬k0_cond2 i = 1#1)
    (x0 x1 : Vec F S1x1x24x192x192 .f32) :
    Σ' (L4 : List (View.Piece (Elt F) S1x1x1 .f32)), Σ' (L5 : List (View.Piece (Elt F) S1x1x1 .f32)), Σ' (L6 : List (View.Piece (Elt F) S1x1x1 .f32)), Σ' (L7 : List (View.Piece (Elt F) S1x1x1 .f32)), { L8 : List (View.Piece (Elt F) S1x1x1 .f32) //
      ∀ (E : Set ℕ) (K : PUnit → sProp 𝕄),
        iprop(owns (c : Thread nD τ) a2 fullShare x0 ∗ owns (c : Thread nD τ) a3 fullShare x1 ∗ (∃ d, owns (c : Thread nD τ) a4 fullShare d) ∗ (∃ d, owns (c : Thread nD τ) a5 fullShare d) ∗ (∃ d, owns (c : Thread nD τ) a6 fullShare d) ∗ (∃ d, owns (c : Thread nD τ) a7 fullShare d) ∗ (∃ d, owns (c : Thread nD τ) a8 fullShare d)
            ∗ (iprop(owns (c : Thread nD τ) a2 fullShare x0 ∗ owns (c : Thread nD τ) a3 fullShare x1 ∗ (∃ f, a4.view.loc (c : Thread nD τ) ↦[a4.view.set]{fullShare} a4.view.writes (Elt F) f L4) ∗ (∃ f, a5.view.loc (c : Thread nD τ) ↦[a5.view.set]{fullShare} a5.view.writes (Elt F) f L5) ∗ (∃ f, a6.view.loc (c : Thread nD τ) ↦[a6.view.set]{fullShare} a6.view.writes (Elt F) f L6) ∗ (∃ f, a7.view.loc (c : Thread nD τ) ↦[a7.view.set]{fullShare} a7.view.writes (Elt F) f L7) ∗ (∃ f, a8.view.loc (c : Thread nD τ) ↦[a8.view.set]{fullShare} a8.view.writes (Elt F) f L8)) -∗ K ⟨⟩))
          ⊢ wp frame (wpE (defs₀ (F := F)) Variants.none c none) E (cc0__ncc_sums_kernel i a2 h2 a3 h3 a4 h4 a5 h5 a6 h6 a7 h7 a8 h8) K } := by
  refine ⟨?_, ?_, ?_, ?_, ?_, fun E K => ?run⟩
  case run =>
    simp only [cc0__ncc_sums_kernel_eq_skeleton]; unfold cc0__ncc_sums_kernel_skel
    simp only [k0_part1_eq_skeleton]; unfold k0_part1_skel
    unfold owns
    iintro ⟨⟨%f0, %hf0, H0⟩, ⟨%f1, %hf1, H1⟩, ⟨%d4, %f4, -, H4⟩, ⟨%d5, %f5, -, H5⟩, ⟨%d6, %f6, -, H6⟩, ⟨%d7, %f7, -, H7⟩, ⟨%d8, %f8, -, H8⟩, Hk⟩
    obtain rfl := h2.eq_unread hf0; obtain rfl := h3.eq_unread hf1
    sl_exec (disch := first | exact hc1 | exact hc2)
    sl_step
    iapply Hk
    isplitl [H0]
    · iexists _; isplitr; · ipureintro; exact h2.read_unread _
      iexact H0
    isplitl [H1]
    · iexists _; isplitr; · ipureintro; exact h3.read_unread _
      iexact H1
    isplitl [H4]; · iexists _; iexact H4
    isplitl [H5]; · iexists _; iexact H5
    isplitl [H6]; · iexists _; iexact H6
    isplitl [H7]; · iexists _; iexact H7
    iexists _; iexact H8

set_option maxHeartbeats 4000000 in
/-- The body at a later depth tile (d ≠ 0): the input buffers hold `x0`, `x1`, the output cells hold the running sums `s4 … s8`; it ends with the inputs as they were and each output cell overwritten by the stores listed in `L4 … L8`. -/
noncomputable def runLater (c : Dev nD) (i : grid0.Coords)
    (a2 : Memref sig .tc .vmem S1x1x24x192x192 .f32) (h2 : a2.IsWhole) (a3 : Memref sig .tc .vmem S1x1x24x192x192 .f32) (h3 : a3.IsWhole)
    (a4 : Memref sig .tc .vmem S1x1x1 .f32) (h4 : a4.IsWhole) (a5 : Memref sig .tc .vmem S1x1x1 .f32) (h5 : a5.IsWhole) (a6 : Memref sig .tc .vmem S1x1x1 .f32) (h6 : a6.IsWhole) (a7 : Memref sig .tc .vmem S1x1x1 .f32) (h7 : a7.IsWhole) (a8 : Memref sig .tc .vmem S1x1x1 .f32) (h8 : a8.IsWhole)
    (hc1 : ¬k0_cond1 i = 1#1) (hc2 : k0_cond2 i = 1#1)
    (x0 x1 : Vec F S1x1x24x192x192 .f32)
    (s4 s5 s6 s7 s8 : Vec F S1x1x1 .f32) :
    Σ' (L4 : List (View.Piece (Elt F) S1x1x1 .f32)), Σ' (L5 : List (View.Piece (Elt F) S1x1x1 .f32)), Σ' (L6 : List (View.Piece (Elt F) S1x1x1 .f32)), Σ' (L7 : List (View.Piece (Elt F) S1x1x1 .f32)), { L8 : List (View.Piece (Elt F) S1x1x1 .f32) //
      ∀ (E : Set ℕ) (K : PUnit → sProp 𝕄),
        iprop(owns (c : Thread nD τ) a2 fullShare x0 ∗ owns (c : Thread nD τ) a3 fullShare x1 ∗ owns (c : Thread nD τ) a4 fullShare s4 ∗ owns (c : Thread nD τ) a5 fullShare s5 ∗ owns (c : Thread nD τ) a6 fullShare s6 ∗ owns (c : Thread nD τ) a7 fullShare s7 ∗ owns (c : Thread nD τ) a8 fullShare s8
            ∗ (iprop(owns (c : Thread nD τ) a2 fullShare x0 ∗ owns (c : Thread nD τ) a3 fullShare x1 ∗ (∃ f, a4.view.loc (c : Thread nD τ) ↦[a4.view.set]{fullShare} a4.view.writes (Elt F) f L4) ∗ (∃ f, a5.view.loc (c : Thread nD τ) ↦[a5.view.set]{fullShare} a5.view.writes (Elt F) f L5) ∗ (∃ f, a6.view.loc (c : Thread nD τ) ↦[a6.view.set]{fullShare} a6.view.writes (Elt F) f L6) ∗ (∃ f, a7.view.loc (c : Thread nD τ) ↦[a7.view.set]{fullShare} a7.view.writes (Elt F) f L7) ∗ (∃ f, a8.view.loc (c : Thread nD τ) ↦[a8.view.set]{fullShare} a8.view.writes (Elt F) f L8)) -∗ K ⟨⟩))
          ⊢ wp frame (wpE (defs₀ (F := F)) Variants.none c none) E (cc0__ncc_sums_kernel i a2 h2 a3 h3 a4 h4 a5 h5 a6 h6 a7 h7 a8 h8) K } := by
  refine ⟨?_, ?_, ?_, ?_, ?_, fun E K => ?run⟩
  case run =>
    simp only [cc0__ncc_sums_kernel_eq_skeleton]; unfold cc0__ncc_sums_kernel_skel
    simp only [k0_part1_eq_skeleton]; unfold k0_part1_skel
    unfold owns
    iintro ⟨⟨%f0, %hf0, H0⟩, ⟨%f1, %hf1, H1⟩, ⟨%f4, %hf4, H4⟩, ⟨%f5, %hf5, H5⟩, ⟨%f6, %hf6, H6⟩, ⟨%f7, %hf7, H7⟩, ⟨%f8, %hf8, H8⟩, Hk⟩
    obtain rfl := h2.eq_unread hf0; obtain rfl := h3.eq_unread hf1
    obtain rfl := h4.eq_unread hf4; obtain rfl := h5.eq_unread hf5; obtain rfl := h6.eq_unread hf6; obtain rfl := h7.eq_unread hf7; obtain rfl := h8.eq_unread hf8
    sl_exec (disch := first | exact hc1 | exact hc2)
    sl_step
    iapply Hk
    isplitl [H0]
    · iexists _; isplitr; · ipureintro; exact h2.read_unread _
      iexact H0
    isplitl [H1]
    · iexists _; isplitr; · ipureintro; exact h3.read_unread _
      iexact H1
    isplitl [H4]; · iexists _; iexact H4
    isplitl [H5]; · iexists _; iexact H5
    isplitl [H6]; · iexists _; iexact H6
    isplitl [H7]; · iexists _; iexact H7
    iexists _; iexact H8

end Cert.KernelIdeal.Acc

end
-- ==== Proof.IdealCases.lean ====
/-
  What each control case of the body leaves in each output cell, as a value.

  Every output cell receives exactly one store covering the whole (one-element) cell, so what the cell holds
  afterwards is that store's payload, whatever it held before. Each load in the payload reads a whole buffer, so it
  reads the buffer's contents. Hence:
    * at a first depth tile the cell ends holding the block's partial sum;
    * at a later depth tile it ends holding its previous contents plus the block's partial sum.
-/
import proofs.«133945_j64441689309643_2_alg».proof.Proof.IdealBody
import proofs.«133945_j64441689309643_2_alg».proof.Proof.LibWhole

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.LibWhole

theorem hz3 : (![0, 0, 0] : Fin 3 → Nat) = fun _ => 0 := funext fun a => by fin_cases a <;> rfl
theorem hz5 : (![0, 0, 0, 0, 0] : Fin 5 → Nat) = fun _ => 0 := funext fun a => by fin_cases a <;> rfl

/-- The five partial sums of one pair of input blocks (`x0` a block of y_pred, `x1` of y_true). -/
abbrev part4 (x0 x1 : Vec F S1x1x24x192x192 .f32) : Vec F S1x1x1 .f32 := k0_pay6 x1  -- Σ y_true
abbrev part5 (x0 x1 : Vec F S1x1x24x192x192 .f32) : Vec F S1x1x1 .f32 := k0_pay7 x0  -- Σ y_pred
abbrev part6 (x0 x1 : Vec F S1x1x24x192x192 .f32) : Vec F S1x1x1 .f32 := k0_pay8 x1  -- Σ y_true²
abbrev part7 (x0 x1 : Vec F S1x1x24x192x192 .f32) : Vec F S1x1x1 .f32 := k0_pay9 x0  -- Σ y_pred²
abbrev part8 (x0 x1 : Vec F S1x1x24x192x192 .f32) : Vec F S1x1x1 .f32 := k0_pay10 x0 x1  -- Σ y_true·y_pred

/-- First tile, Σ y_true: the cell ends at the block's partial sum. -/
theorem first_val4 (c : Dev nD) (i : grid0.Coords)
    (a2 : Memref sig .tc .vmem S1x1x24x192x192 .f32) (h2 : a2.IsWhole) (a3 : Memref sig .tc .vmem S1x1x24x192x192 .f32) (h3 : a3.IsWhole)
    (a4 : Memref sig .tc .vmem S1x1x1 .f32) (h4 : a4.IsWhole) (a5 : Memref sig .tc .vmem S1x1x1 .f32) (h5 : a5.IsWhole) (a6 : Memref sig .tc .vmem S1x1x1 .f32) (h6 : a6.IsWhole) (a7 : Memref sig .tc .vmem S1x1x1 .f32) (h7 : a7.IsWhole) (a8 : Memref sig .tc .vmem S1x1x1 .f32) (h8 : a8.IsWhole)
    (hc1 : k0_cond1 i = 1#1) (hc2 : ¬k0_cond2 i = 1#1) (x0 x1 : Vec F S1x1x24x192x192 .f32)
    (v : View sig .tc .vmem S1x1x1 .f32) (f : v.ty.Contents (Elt F)) :
    v.read (Elt F) (v.writes (Elt F) f (runFirst c i a2 h2 a3 h3 a4 h4 a5 h5 a6 h6 a7 h7 a8 h8 hc1 hc2 x0 x1).1) = part4 x0 x1 := by
  unfold runFirst
  refine (read_writes_whole v f hz3 _ _).trans ?_
  rw [readAt_whole a3.view _ hz5, h3.read_unread]

/-- Later tile, Σ y_true: the cell ends at its previous contents plus the block's partial sum. -/
theorem later_val4 (c : Dev nD) (i : grid0.Coords)
    (a2 : Memref sig .tc .vmem S1x1x24x192x192 .f32) (h2 : a2.IsWhole) (a3 : Memref sig .tc .vmem S1x1x24x192x192 .f32) (h3 : a3.IsWhole)
    (a4 : Memref sig .tc .vmem S1x1x1 .f32) (h4 : a4.IsWhole) (a5 : Memref sig .tc .vmem S1x1x1 .f32) (h5 : a5.IsWhole) (a6 : Memref sig .tc .vmem S1x1x1 .f32) (h6 : a6.IsWhole) (a7 : Memref sig .tc .vmem S1x1x1 .f32) (h7 : a7.IsWhole) (a8 : Memref sig .tc .vmem S1x1x1 .f32) (h8 : a8.IsWhole)
    (hc1 : ¬k0_cond1 i = 1#1) (hc2 : k0_cond2 i = 1#1) (x0 x1 : Vec F S1x1x24x192x192 .f32) (s4 s5 s6 s7 s8 : Vec F S1x1x1 .f32)
    (v : View sig .tc .vmem S1x1x1 .f32) (f : v.ty.Contents (Elt F)) :
    v.read (Elt F) (v.writes (Elt F) f (runLater c i a2 h2 a3 h3 a4 h4 a5 h5 a6 h6 a7 h7 a8 h8 hc1 hc2 x0 x1 s4 s5 s6 s7 s8).1) = addf s4 (part4 x0 x1) := by
  unfold runLater
  refine (read_writes_whole v f hz3 _ _).trans ?_
  rw [readAt_whole a3.view _ hz5, readAt_whole a4.view _ hz3, h3.read_unread, h4.read_unread]
  unfold k0_pay1
  rw [shapeCast_self]

/-- First tile, Σ y_pred: the cell ends at the block's partial sum. -/
theorem first_val5 (c : Dev nD) (i : grid0.Coords)
    (a2 : Memref sig .tc .vmem S1x1x24x192x192 .f32) (h2 : a2.IsWhole) (a3 : Memref sig .tc .vmem S1x1x24x192x192 .f32) (h3 : a3.IsWhole)
    (a4 : Memref sig .tc .vmem S1x1x1 .f32) (h4 : a4.IsWhole) (a5 : Memref sig .tc .vmem S1x1x1 .f32) (h5 : a5.IsWhole) (a6 : Memref sig .tc .vmem S1x1x1 .f32) (h6 : a6.IsWhole) (a7 : Memref sig .tc .vmem S1x1x1 .f32) (h7 : a7.IsWhole) (a8 : Memref sig .tc .vmem S1x1x1 .f32) (h8 : a8.IsWhole)
    (hc1 : k0_cond1 i = 1#1) (hc2 : ¬k0_cond2 i = 1#1) (x0 x1 : Vec F S1x1x24x192x192 .f32)
    (v : View sig .tc .vmem S1x1x1 .f32) (f : v.ty.Contents (Elt F)) :
    v.read (Elt F) (v.writes (Elt F) f (runFirst c i a2 h2 a3 h3 a4 h4 a5 h5 a6 h6 a7 h7 a8 h8 hc1 hc2 x0 x1).2.1) = part5 x0 x1 := by
  unfold runFirst
  refine (read_writes_whole v f hz3 _ _).trans ?_
  rw [readAt_whole a2.view _ hz5, h2.read_unread]

/-- Later tile, Σ y_pred: the cell ends at its previous contents plus the block's partial sum. -/
theorem later_val5 (c : Dev nD) (i : grid0.Coords)
    (a2 : Memref sig .tc .vmem S1x1x24x192x192 .f32) (h2 : a2.IsWhole) (a3 : Memref sig .tc .vmem S1x1x24x192x192 .f32) (h3 : a3.IsWhole)
    (a4 : Memref sig .tc .vmem S1x1x1 .f32) (h4 : a4.IsWhole) (a5 : Memref sig .tc .vmem S1x1x1 .f32) (h5 : a5.IsWhole) (a6 : Memref sig .tc .vmem S1x1x1 .f32) (h6 : a6.IsWhole) (a7 : Memref sig .tc .vmem S1x1x1 .f32) (h7 : a7.IsWhole) (a8 : Memref sig .tc .vmem S1x1x1 .f32) (h8 : a8.IsWhole)
    (hc1 : ¬k0_cond1 i = 1#1) (hc2 : k0_cond2 i = 1#1) (x0 x1 : Vec F S1x1x24x192x192 .f32) (s4 s5 s6 s7 s8 : Vec F S1x1x1 .f32)
    (v : View sig .tc .vmem S1x1x1 .f32) (f : v.ty.Contents (Elt F)) :
    v.read (Elt F) (v.writes (Elt F) f (runLater c i a2 h2 a3 h3 a4 h4 a5 h5 a6 h6 a7 h7 a8 h8 hc1 hc2 x0 x1 s4 s5 s6 s7 s8).2.1) = addf s5 (part5 x0 x1) := by
  unfold runLater
  refine (read_writes_whole v f hz3 _ _).trans ?_
  rw [readAt_whole a2.view _ hz5, readAt_whole a5.view _ hz3, h2.read_unread, h5.read_unread]
  unfold k0_pay2
  rw [shapeCast_self]

/-- First tile, Σ y_true²: the cell ends at the block's partial sum. -/
theorem first_val6 (c : Dev nD) (i : grid0.Coords)
    (a2 : Memref sig .tc .vmem S1x1x24x192x192 .f32) (h2 : a2.IsWhole) (a3 : Memref sig .tc .vmem S1x1x24x192x192 .f32) (h3 : a3.IsWhole)
    (a4 : Memref sig .tc .vmem S1x1x1 .f32) (h4 : a4.IsWhole) (a5 : Memref sig .tc .vmem S1x1x1 .f32) (h5 : a5.IsWhole) (a6 : Memref sig .tc .vmem S1x1x1 .f32) (h6 : a6.IsWhole) (a7 : Memref sig .tc .vmem S1x1x1 .f32) (h7 : a7.IsWhole) (a8 : Memref sig .tc .vmem S1x1x1 .f32) (h8 : a8.IsWhole)
    (hc1 : k0_cond1 i = 1#1) (hc2 : ¬k0_cond2 i = 1#1) (x0 x1 : Vec F S1x1x24x192x192 .f32)
    (v : View sig .tc .vmem S1x1x1 .f32) (f : v.ty.Contents (Elt F)) :
    v.read (Elt F) (v.writes (Elt F) f (runFirst c i a2 h2 a3 h3 a4 h4 a5 h5 a6 h6 a7 h7 a8 h8 hc1 hc2 x0 x1).2.2.1) = part6 x0 x1 := by
  unfold runFirst
  refine (read_writes_whole v f hz3 _ _).trans ?_
  rw [readAt_whole a3.view _ hz5, h3.read_unread]

/-- Later tile, Σ y_true²: the cell ends at its previous contents plus the block's partial sum. -/
theorem later_val6 (c : Dev nD) (i : grid0.Coords)
    (a2 : Memref sig .tc .vmem S1x1x24x192x192 .f32) (h2 : a2.IsWhole) (a3 : Memref sig .tc .vmem S1x1x24x192x192 .f32) (h3 : a3.IsWhole)
    (a4 : Memref sig .tc .vmem S1x1x1 .f32) (h4 : a4.IsWhole) (a5 : Memref sig .tc .vmem S1x1x1 .f32) (h5 : a5.IsWhole) (a6 : Memref sig .tc .vmem S1x1x1 .f32) (h6 : a6.IsWhole) (a7 : Memref sig .tc .vmem S1x1x1 .f32) (h7 : a7.IsWhole) (a8 : Memref sig .tc .vmem S1x1x1 .f32) (h8 : a8.IsWhole)
    (hc1 : ¬k0_cond1 i = 1#1) (hc2 : k0_cond2 i = 1#1) (x0 x1 : Vec F S1x1x24x192x192 .f32) (s4 s5 s6 s7 s8 : Vec F S1x1x1 .f32)
    (v : View sig .tc .vmem S1x1x1 .f32) (f : v.ty.Contents (Elt F)) :
    v.read (Elt F) (v.writes (Elt F) f (runLater c i a2 h2 a3 h3 a4 h4 a5 h5 a6 h6 a7 h7 a8 h8 hc1 hc2 x0 x1 s4 s5 s6 s7 s8).2.2.1) = addf s6 (part6 x0 x1) := by
  unfold runLater
  refine (read_writes_whole v f hz3 _ _).trans ?_
  rw [readAt_whole a3.view _ hz5, readAt_whole a6.view _ hz3, h3.read_unread, h6.read_unread]
  unfold k0_pay3
  rw [shapeCast_self]

/-- First tile, Σ y_pred²: the cell ends at the block's partial sum. -/
theorem first_val7 (c : Dev nD) (i : grid0.Coords)
    (a2 : Memref sig .tc .vmem S1x1x24x192x192 .f32) (h2 : a2.IsWhole) (a3 : Memref sig .tc .vmem S1x1x24x192x192 .f32) (h3 : a3.IsWhole)
    (a4 : Memref sig .tc .vmem S1x1x1 .f32) (h4 : a4.IsWhole) (a5 : Memref sig .tc .vmem S1x1x1 .f32) (h5 : a5.IsWhole) (a6 : Memref sig .tc .vmem S1x1x1 .f32) (h6 : a6.IsWhole) (a7 : Memref sig .tc .vmem S1x1x1 .f32) (h7 : a7.IsWhole) (a8 : Memref sig .tc .vmem S1x1x1 .f32) (h8 : a8.IsWhole)
    (hc1 : k0_cond1 i = 1#1) (hc2 : ¬k0_cond2 i = 1#1) (x0 x1 : Vec F S1x1x24x192x192 .f32)
    (v : View sig .tc .vmem S1x1x1 .f32) (f : v.ty.Contents (Elt F)) :
    v.read (Elt F) (v.writes (Elt F) f (runFirst c i a2 h2 a3 h3 a4 h4 a5 h5 a6 h6 a7 h7 a8 h8 hc1 hc2 x0 x1).2.2.2.1) = part7 x0 x1 := by
  unfold runFirst
  refine (read_writes_whole v f hz3 _ _).trans ?_
  rw [readAt_whole a2.view _ hz5, h2.read_unread]

/-- Later tile, Σ y_pred²: the cell ends at its previous contents plus the block's partial sum. -/
theorem later_val7 (c : Dev nD) (i : grid0.Coords)
    (a2 : Memref sig .tc .vmem S1x1x24x192x192 .f32) (h2 : a2.IsWhole) (a3 : Memref sig .tc .vmem S1x1x24x192x192 .f32) (h3 : a3.IsWhole)
    (a4 : Memref sig .tc .vmem S1x1x1 .f32) (h4 : a4.IsWhole) (a5 : Memref sig .tc .vmem S1x1x1 .f32) (h5 : a5.IsWhole) (a6 : Memref sig .tc .vmem S1x1x1 .f32) (h6 : a6.IsWhole) (a7 : Memref sig .tc .vmem S1x1x1 .f32) (h7 : a7.IsWhole) (a8 : Memref sig .tc .vmem S1x1x1 .f32) (h8 : a8.IsWhole)
    (hc1 : ¬k0_cond1 i = 1#1) (hc2 : k0_cond2 i = 1#1) (x0 x1 : Vec F S1x1x24x192x192 .f32) (s4 s5 s6 s7 s8 : Vec F S1x1x1 .f32)
    (v : View sig .tc .vmem S1x1x1 .f32) (f : v.ty.Contents (Elt F)) :
    v.read (Elt F) (v.writes (Elt F) f (runLater c i a2 h2 a3 h3 a4 h4 a5 h5 a6 h6 a7 h7 a8 h8 hc1 hc2 x0 x1 s4 s5 s6 s7 s8).2.2.2.1) = addf s7 (part7 x0 x1) := by
  unfold runLater
  refine (read_writes_whole v f hz3 _ _).trans ?_
  rw [readAt_whole a2.view _ hz5, readAt_whole a7.view _ hz3, h2.read_unread, h7.read_unread]
  unfold k0_pay4
  rw [shapeCast_self]

/-- First tile, Σ y_true·y_pred: the cell ends at the block's partial sum. -/
theorem first_val8 (c : Dev nD) (i : grid0.Coords)
    (a2 : Memref sig .tc .vmem S1x1x24x192x192 .f32) (h2 : a2.IsWhole) (a3 : Memref sig .tc .vmem S1x1x24x192x192 .f32) (h3 : a3.IsWhole)
    (a4 : Memref sig .tc .vmem S1x1x1 .f32) (h4 : a4.IsWhole) (a5 : Memref sig .tc .vmem S1x1x1 .f32) (h5 : a5.IsWhole) (a6 : Memref sig .tc .vmem S1x1x1 .f32) (h6 : a6.IsWhole) (a7 : Memref sig .tc .vmem S1x1x1 .f32) (h7 : a7.IsWhole) (a8 : Memref sig .tc .vmem S1x1x1 .f32) (h8 : a8.IsWhole)
    (hc1 : k0_cond1 i = 1#1) (hc2 : ¬k0_cond2 i = 1#1) (x0 x1 : Vec F S1x1x24x192x192 .f32)
    (v : View sig .tc .vmem S1x1x1 .f32) (f : v.ty.Contents (Elt F)) :
    v.read (Elt F) (v.writes (Elt F) f (runFirst c i a2 h2 a3 h3 a4 h4 a5 h5 a6 h6 a7 h7 a8 h8 hc1 hc2 x0 x1).2.2.2.2.1) = part8 x0 x1 := by
  unfold runFirst
  refine (read_writes_whole v f hz3 _ _).trans ?_
  rw [readAt_whole a2.view _ hz5, readAt_whole a3.view _ hz5, h2.read_unread, h3.read_unread]

/-- Later tile, Σ y_true·y_pred: the cell ends at its previous contents plus the block's partial sum. -/
theorem later_val8 (c : Dev nD) (i : grid0.Coords)
    (a2 : Memref sig .tc .vmem S1x1x24x192x192 .f32) (h2 : a2.IsWhole) (a3 : Memref sig .tc .vmem S1x1x24x192x192 .f32) (h3 : a3.IsWhole)
    (a4 : Memref sig .tc .vmem S1x1x1 .f32) (h4 : a4.IsWhole) (a5 : Memref sig .tc .vmem S1x1x1 .f32) (h5 : a5.IsWhole) (a6 : Memref sig .tc .vmem S1x1x1 .f32) (h6 : a6.IsWhole) (a7 : Memref sig .tc .vmem S1x1x1 .f32) (h7 : a7.IsWhole) (a8 : Memref sig .tc .vmem S1x1x1 .f32) (h8 : a8.IsWhole)
    (hc1 : ¬k0_cond1 i = 1#1) (hc2 : k0_cond2 i = 1#1) (x0 x1 : Vec F S1x1x24x192x192 .f32) (s4 s5 s6 s7 s8 : Vec F S1x1x1 .f32)
    (v : View sig .tc .vmem S1x1x1 .f32) (f : v.ty.Contents (Elt F)) :
    v.read (Elt F) (v.writes (Elt F) f (runLater c i a2 h2 a3 h3 a4 h4 a5 h5 a6 h6 a7 h7 a8 h8 hc1 hc2 x0 x1 s4 s5 s6 s7 s8).2.2.2.2.1) = addf s8 (part8 x0 x1) := by
  unfold runLater
  refine (read_writes_whole v f hz3 _ _).trans ?_
  rw [readAt_whole a2.view _ hz5, readAt_whole a3.view _ hz5, readAt_whole a8.view _ hz3, h2.read_unread, h3.read_unread, h8.read_unread]
  unfold k0_pay5
  rw [shapeCast_self]

end Cert.KernelIdeal.Acc

end
-- ==== Proof.IdealFrame.lean ====
/-
  The frame of the kernel's one region: what every staging buffer holds after the body at every grid point,
  and from it that the program runs to its end, faults nowhere, and leaves its two argument arrays unchanged.

  Point t = 8·b + d handles depth tile d of batch element b. After the body at t, each input buffer still holds its
  block, and each of the five output cells holds the RUNNING SUM of the partial sums of the tiles 0 … d of batch
  element b: at d = 0 the cell is overwritten with the tile's partial sum, at d ≠ 0 the tile's partial sum is added
  to what the previous point left (the cell is written back to its array only after d = 7, so between two points of
  one batch element nothing else touches it).
-/
import proofs.«133945_j64441689309643_2_alg».proof.Proof.IdealCases

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The running sums -/

/-- Grid point number `n` (point 0 for a number beyond the grid). -/
def pt (n : ℕ) : Fin cfg0.N := if h : n < cfg0.N then ⟨n, h⟩ else ⟨0, by rw [show cfg0.N = 32 from N_0]; decide⟩

theorem pt_val (t : Fin cfg0.N) : pt t.val = t := dif_pos t.isLt

/-- The running sum of per-point partial sums `P`: restarted at every first depth tile (n ≡ 0 mod 8), added to otherwise. -/
def accum (P : Fin cfg0.N → Vec F S1x1x1 .f32) : ℕ → Vec F S1x1x1 .f32
  | 0 => P (pt 0)
  | n + 1 => if (n + 1) % 8 = 0 then P (pt (n + 1)) else addf (accum P n) (P (pt (n + 1)))

theorem accum_first (P : Fin cfg0.N → Vec F S1x1x1 .f32) (t : Fin cfg0.N) (h : t.val % 8 = 0) : accum P t.val = P t := by
  obtain ⟨n, hn⟩ := t
  cases n with
  | zero => exact congrArg P (pt_val ⟨0, hn⟩)
  | succ n =>
    show (if (n + 1) % 8 = 0 then P (pt (n + 1)) else addf (accum P n) (P (pt (n + 1)))) = _
    rw [if_pos h]; exact congrArg P (pt_val ⟨n + 1, hn⟩)

theorem accum_later (P : Fin cfg0.N → Vec F S1x1x1 .f32) (t : Fin cfg0.N) (h : ¬t.val % 8 = 0) :
    accum P t.val = addf (accum P (t.val - 1)) (P t) := by
  obtain ⟨n, hn⟩ := t
  cases n with
  | zero => exact absurd (Nat.zero_mod _) h
  | succ n =>
    show (if (n + 1) % 8 = 0 then P (pt (n + 1)) else addf (accum P n) (P (pt (n + 1)))) = _
    rw [if_neg h]; exact congrArg (addf (accum P n)) (congrArg P (pt_val ⟨n + 1, hn⟩))

/-- The five partial sums of the input blocks at point `t`. -/
def P4 (c : Dev nD) (t : Fin cfg0.N) : Vec F S1x1x1 .f32 := part4 (iblk m c 0 t) (iblk m c 1 t)
def P5 (c : Dev nD) (t : Fin cfg0.N) : Vec F S1x1x1 .f32 := part5 (iblk m c 0 t) (iblk m c 1 t)
def P6 (c : Dev nD) (t : Fin cfg0.N) : Vec F S1x1x1 .f32 := part6 (iblk m c 0 t) (iblk m c 1 t)
def P7 (c : Dev nD) (t : Fin cfg0.N) : Vec F S1x1x1 .f32 := part7 (iblk m c 0 t) (iblk m c 1 t)
def P8 (c : Dev nD) (t : Fin cfg0.N) : Vec F S1x1x1 .f32 := part8 (iblk m c 0 t) (iblk m c 1 t)

/-! ## The staging buffers at a point -/

abbrev ms0 (t : Fin cfg0.N) : Memref sig .tc .vmem S1x1x24x192x192 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x24x192x192 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1x1 .f32 := win0_6.stage (cfg0.slots t 6)
abbrev hs6 (t : Fin cfg0.N) : (ms6 t).IsWhole := hstage0_6 ((cfg0.slots t 6).cast nbuf0_6)

/-! ## The proof data -/

/-- The arrays as the region finds them; after the body at point `t` each input buffer at its block, each output cell
    at its running sum; the invariant is the rest of the core's scoped memory, untouched; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accum (P4 m c) t.val
    | ⟨3, _⟩ => accum (P5 m c) t.val
    | ⟨4, _⟩ => accum (P6 m c) t.val
    | ⟨5, _⟩ => accum (P7 m c) t.val
    | ⟨6, _⟩ => accum (P8 m c) t.val
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = accum (P4 m c) t.val := by dsimp only [dats]
theorem after3 (c : Dev nD) (t : Fin cfg0.N) : (dats m 0 c).after 3 t = accum (P5 m c) t.val := by dsimp only [dats]
theorem after4 (c : Dev nD) (t : Fin cfg0.N) : (dats m 0 c).after 4 t = accum (P6 m c) t.val := by dsimp only [dats]
theorem after5 (c : Dev nD) (t : Fin cfg0.N) : (dats m 0 c).after 5 t = accum (P7 m c) t.val := by dsimp only [dats]
theorem after6 (c : Dev nD) (t : Fin cfg0.N) : (dats m 0 c).after 6 t = accum (P8 m c) t.val := by dsimp only [dats]

/-- Each input buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- At a later depth tile output cell 2 holds what the point before left: the point is not the first, the cell was not
    written back in between (write-backs follow the tiles d = 7 only), and it is stored into at every point. -/
theorem before2_later (c : Dev nD) (t : Fin cfg0.N) (h0 : ¬t.val % 8 = 0) (d) :
    (dats m 0 c).before 2 t d = accum (P4 m c) (t.val - 1) := by
  have hN : t.val < 32 := lt_of_lt_of_eq t.isLt (show cfg0.N = 32 from N_0)
  rw [Dat.before_out_kept _ 2 rfl t (by omega) (Bool.eq_false_iff.mpr fun h => by have := (flush0_2 _).mp h; dsimp only at this; omega)
    (live 2) (fun _ _ => rfl)]
  dsimp only [dats]

/-- At a later depth tile output cell 3 holds what the point before left: the point is not the first, the cell was not
    written back in between (write-backs follow the tiles d = 7 only), and it is stored into at every point. -/
theorem before3_later (c : Dev nD) (t : Fin cfg0.N) (h0 : ¬t.val % 8 = 0) (d) :
    (dats m 0 c).before 3 t d = accum (P5 m c) (t.val - 1) := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    (live 3) (fun _ _ => rfl)]
  dsimp only [dats]

/-- At a later depth tile output cell 4 holds what the point before left: the point is not the first, the cell was not
    written back in between (write-backs follow the tiles d = 7 only), and it is stored into at every point. -/
theorem before4_later (c : Dev nD) (t : Fin cfg0.N) (h0 : ¬t.val % 8 = 0) (d) :
    (dats m 0 c).before 4 t d = accum (P6 m c) (t.val - 1) := by
  have hN : t.val < 32 := lt_of_lt_of_eq t.isLt (show cfg0.N = 32 from N_0)
  rw [Dat.before_out_kept _ 4 rfl t (by omega) (Bool.eq_false_iff.mpr fun h => by have := (flush0_4 _).mp h; dsimp only at this; omega)
    (live 4) (fun _ _ => rfl)]
  dsimp only [dats]

/-- At a later depth tile output cell 5 holds what the point before left: the point is not the first, the cell was not
    written back in between (write-backs follow the tiles d = 7 only), and it is stored into at every point. -/
theorem before5_later (c : Dev nD) (t : Fin cfg0.N) (h0 : ¬t.val % 8 = 0) (d) :
    (dats m 0 c).before 5 t d = accum (P7 m c) (t.val - 1) := by
  have hN : t.val < 32 := lt_of_lt_of_eq t.isLt (show cfg0.N = 32 from N_0)
  rw [Dat.before_out_kept _ 5 rfl t (by omega) (Bool.eq_false_iff.mpr fun h => by have := (flush0_5 _).mp h; dsimp only at this; omega)
    (live 5) (fun _ _ => rfl)]
  dsimp only [dats]

/-- At a later depth tile output cell 6 holds what the point before left: the point is not the first, the cell was not
    written back in between (write-backs follow the tiles d = 7 only), and it is stored into at every point. -/
theorem before6_later (c : Dev nD) (t : Fin cfg0.N) (h0 : ¬t.val % 8 = 0) (d) :
    (dats m 0 c).before 6 t d = accum (P8 m c) (t.val - 1) := by
  have hN : t.val < 32 := lt_of_lt_of_eq t.isLt (show cfg0.N = 32 from N_0)
  rw [Dat.before_out_kept _ 6 rfl t (by omega) (Bool.eq_false_iff.mpr fun h => by have := (flush0_6 _).mp h; dsimp only at this; omega)
    (live 6) (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 4000000 in
/-- The body at any point: the input buffers hold their blocks; the point is a first depth tile or a later one; in the
    second case each output cell holds the running sum the point before left; the matching run of the body applies,
    and what it leaves in each cell is the running sum at this point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3, after4, after5, after6]
  by_cases h0 : t.val % 8 = 0
  · rw [accum_first (P4 m c) t h0, accum_first (P5 m c) t h0, accum_first (P6 m c) t h0, accum_first (P7 m c) t h0, accum_first (P8 m c) t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runFirst c (grid0.coords t) (ms0 t) (hs0 t) (ms1 t) (hs1 t) (ms2 t) (hs2 t) (ms3 t) (hs3 t) (ms4 t) (hs4 t) (ms5 t) (hs5 t) (ms6 t) (hs6 t)
      ((first_iff t).mpr h0) (fun h => (later_iff t).mp h h0) (iblk m c 0 t) (iblk m c 1 t)).2.2.2.2.2 Set.univ _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [H6]; · iexists _; iexact H6
    iintro ⟨H0, H1, ⟨%e2, H2⟩, ⟨%e3, H3⟩, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]
    · unfold owns; iexists _; isplitr; swap; · iexact H2
      ipureintro
      exact first_val4 c (grid0.coords t) (ms0 t) (hs0 t) (ms1 t) (hs1 t) (ms2 t) (hs2 t) (ms3 t) (hs3 t) (ms4 t) (hs4 t) (ms5 t) (hs5 t) (ms6 t) (hs6 t)
        ((first_iff t).mpr h0) (fun h => (later_iff t).mp h h0) (iblk m c 0 t) (iblk m c 1 t) (ms2 t).view e2
    isplitl [H3]
    · unfold owns; iexists _; isplitr; swap; · iexact H3
      ipureintro
      exact first_val5 c (grid0.coords t) (ms0 t) (hs0 t) (ms1 t) (hs1 t) (ms2 t) (hs2 t) (ms3 t) (hs3 t) (ms4 t) (hs4 t) (ms5 t) (hs5 t) (ms6 t) (hs6 t)
        ((first_iff t).mpr h0) (fun h => (later_iff t).mp h h0) (iblk m c 0 t) (iblk m c 1 t) (ms3 t).view e3
    isplitl [H4]
    · unfold owns; iexists _; isplitr; swap; · iexact H4
      ipureintro
      exact first_val6 c (grid0.coords t) (ms0 t) (hs0 t) (ms1 t) (hs1 t) (ms2 t) (hs2 t) (ms3 t) (hs3 t) (ms4 t) (hs4 t) (ms5 t) (hs5 t) (ms6 t) (hs6 t)
        ((first_iff t).mpr h0) (fun h => (later_iff t).mp h h0) (iblk m c 0 t) (iblk m c 1 t) (ms4 t).view e4
    isplitl [H5]
    · unfold owns; iexists _; isplitr; swap; · iexact H5
      ipureintro
      exact first_val7 c (grid0.coords t) (ms0 t) (hs0 t) (ms1 t) (hs1 t) (ms2 t) (hs2 t) (ms3 t) (hs3 t) (ms4 t) (hs4 t) (ms5 t) (hs5 t) (ms6 t) (hs6 t)
        ((first_iff t).mpr h0) (fun h => (later_iff t).mp h h0) (iblk m c 0 t) (iblk m c 1 t) (ms5 t).view e5
    · unfold owns; iexists _; isplitr; swap; · iexact H6
      ipureintro
      exact first_val8 c (grid0.coords t) (ms0 t) (hs0 t) (ms1 t) (hs1 t) (ms2 t) (hs2 t) (ms3 t) (hs3 t) (ms4 t) (hs4 t) (ms5 t) (hs5 t) (ms6 t) (hs6 t)
        ((first_iff t).mpr h0) (fun h => (later_iff t).mp h h0) (iblk m c 0 t) (iblk m c 1 t) (ms6 t).view e6
  · rw [accum_later (P4 m c) t h0, accum_later (P5 m c) t h0, accum_later (P6 m c) t h0, accum_later (P7 m c) t h0, accum_later (P8 m c) t h0]
    simp only [before2_later m c t h0, before3_later m c t h0, before4_later m c t h0, before5_later m c t h0, before6_later m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runLater c (grid0.coords t) (ms0 t) (hs0 t) (ms1 t) (hs1 t) (ms2 t) (hs2 t) (ms3 t) (hs3 t) (ms4 t) (hs4 t) (ms5 t) (hs5 t) (ms6 t) (hs6 t)
      (fun h => h0 ((first_iff t).mp h)) ((later_iff t).mpr h0) (iblk m c 0 t) (iblk m c 1 t)
      (accum (P4 m c) (t.val - 1)) (accum (P5 m c) (t.val - 1)) (accum (P6 m c) (t.val - 1)) (accum (P7 m c) (t.val - 1)) (accum (P8 m c) (t.val - 1))).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, ⟨%e2, H2⟩, ⟨%e3, H3⟩, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]
    · unfold owns; iexists _; isplitr; swap; · iexact H2
      ipureintro
      exact later_val4 c (grid0.coords t) (ms0 t) (hs0 t) (ms1 t) (hs1 t) (ms2 t) (hs2 t) (ms3 t) (hs3 t) (ms4 t) (hs4 t) (ms5 t) (hs5 t) (ms6 t) (hs6 t)
        (fun h => h0 ((first_iff t).mp h)) ((later_iff t).mpr h0) (iblk m c 0 t) (iblk m c 1 t)
        (accum (P4 m c) (t.val - 1)) (accum (P5 m c) (t.val - 1)) (accum (P6 m c) (t.val - 1)) (accum (P7 m c) (t.val - 1)) (accum (P8 m c) (t.val - 1)) (ms2 t).view e2
    isplitl [H3]
    · unfold owns; iexists _; isplitr; swap; · iexact H3
      ipureintro
      exact later_val5 c (grid0.coords t) (ms0 t) (hs0 t) (ms1 t) (hs1 t) (ms2 t) (hs2 t) (ms3 t) (hs3 t) (ms4 t) (hs4 t) (ms5 t) (hs5 t) (ms6 t) (hs6 t)
        (fun h => h0 ((first_iff t).mp h)) ((later_iff t).mpr h0) (iblk m c 0 t) (iblk m c 1 t)
        (accum (P4 m c) (t.val - 1)) (accum (P5 m c) (t.val - 1)) (accum (P6 m c) (t.val - 1)) (accum (P7 m c) (t.val - 1)) (accum (P8 m c) (t.val - 1)) (ms3 t).view e3
    isplitl [H4]
    · unfold owns; iexists _; isplitr; swap; · iexact H4
      ipureintro
      exact later_val6 c (grid0.coords t) (ms0 t) (hs0 t) (ms1 t) (hs1 t) (ms2 t) (hs2 t) (ms3 t) (hs3 t) (ms4 t) (hs4 t) (ms5 t) (hs5 t) (ms6 t) (hs6 t)
        (fun h => h0 ((first_iff t).mp h)) ((later_iff t).mpr h0) (iblk m c 0 t) (iblk m c 1 t)
        (accum (P4 m c) (t.val - 1)) (accum (P5 m c) (t.val - 1)) (accum (P6 m c) (t.val - 1)) (accum (P7 m c) (t.val - 1)) (accum (P8 m c) (t.val - 1)) (ms4 t).view e4
    isplitl [H5]
    · unfold owns; iexists _; isplitr; swap; · iexact H5
      ipureintro
      exact later_val7 c (grid0.coords t) (ms0 t) (hs0 t) (ms1 t) (hs1 t) (ms2 t) (hs2 t) (ms3 t) (hs3 t) (ms4 t) (hs4 t) (ms5 t) (hs5 t) (ms6 t) (hs6 t)
        (fun h => h0 ((first_iff t).mp h)) ((later_iff t).mpr h0) (iblk m c 0 t) (iblk m c 1 t)
        (accum (P4 m c) (t.val - 1)) (accum (P5 m c) (t.val - 1)) (accum (P6 m c) (t.val - 1)) (accum (P7 m c) (t.val - 1)) (accum (P8 m c) (t.val - 1)) (ms5 t).view e5
    · unfold owns; iexists _; isplitr; swap; · iexact H6
      ipureintro
      exact later_val8 c (grid0.coords t) (ms0 t) (hs0 t) (ms1 t) (hs1 t) (ms2 t) (hs2 t) (ms3 t) (hs3 t) (ms4 t) (hs4 t) (ms5 t) (hs5 t) (ms6 t) (hs6 t)
        (fun h => h0 ((first_iff t).mp h)) ((later_iff t).mpr h0) (iblk m c 0 t) (iblk m c 1 t)
        (accum (P4 m c) (t.val - 1)) (accum (P5 m c) (t.val - 1)) (accum (P6 m c) (t.val - 1)) (accum (P7 m c) (t.val - 1)) (accum (P8 m c) (t.val - 1)) (ms6 t).view e6

end Cert.KernelIdeal.Acc

end
-- ==== Proof.IdealRun.lean ====
/-
  From the body at every point to the whole program: the library's obligation for the region's body, the run of the
  program (the region, then the host operations after it), and the frame: the program runs to its end, faults
  nowhere, and leaves its two argument arrays unchanged.
-/
import proofs.«133945_j64441689309643_2_alg».proof.Proof.IdealFrame

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No output cell is idle at any grid coordinate (the same fact, over the configuration's printed idle table). -/
theorem live' : ∀ (w : Fin 7) (i : grid0.Coords), idle0 w i = false := live

set_option maxHeartbeats 4000000 in
/-- The library's body obligation, at every point: no window is idle anywhere, so every buffer is handed back at what the
    body leaves in it; the body the pipeline calls at point `t` is the kernel function at the point's coordinates and
    staging buffers; and that is what `sound_body` runs. -/
theorem body_obligation (c : Dev nD) : BodyObligation (dats (F := F) m 0 c) (defs₀ (F := F)) Variants.none () Set.univ := fun t => by
  rw [bigSep_W0, bigSep_W0]
  simp only [live, live']
  rw [show idle0 2 (grid0.coords t) = false from live' 2 _]
  dsimp only
  have e : defs₀ (F := F) Proc.tc (0 : Fin 1) (t, cfg0.slots t) = bodyAt0 t := by
    unfold defs₀
    rw [Defs.onTc_tc]
  rw [e]
  exact sound_body m c t

/-! ## The run and the frame -/

set_option backward.isDefEq.respectTransparency.types false in
/-- Every weakly fair execution of the program terminates, and in every final state each array of the region holds
    what the proof data computes, the host operations after the region applied on top. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to its end, faults nowhere, and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Acc

end
-- ==== Proof.LibSums.lean ====
/-
  Two re-indexings of finite sums, over any commutative monoid.

  * A sum over the indices of a rank-4 shape whose first two coordinates are fixed (the indices a reduction over
    the two trailing axes sends to one result index) is the double sum over the two trailing coordinates.
  * A sum over `Fin N` with `N = T * R` is the sum over `T` tiles of the sum over the `R` positions inside a tile,
    position `r` of tile `t` being `R * t + r`.
-/
import Idealize.ShloMosaic.Lib.ValueIdx
import Idealize.ShloMosaic.PureOps.Reduce

noncomputable section

open scoped BigOperators

namespace Cert.LibSums

open Idealize.ShloMosaic Idealize.ShloMosaic.ValueIdx

/-- Position `r` of tile `t` lies below `T * R`. -/
theorem tile_lt {T R N : Nat} (hN : T * R = N) (t : Fin T) (r : Fin R) : R * t.val + r.val < N := by
  have h1 : R * t.val + r.val < R * (t.val + 1) := by rw [Nat.mul_succ]; exact Nat.add_lt_add_left r.isLt _
  have h2 : R * (t.val + 1) ≤ R * T := Nat.mul_le_mul_left R (Nat.succ_le_of_lt t.isLt)
  rw [← hN, Nat.mul_comm T R]; exact Nat.lt_of_lt_of_le h1 h2

/-- A sum over `N = T * R` positions, tile by tile. -/
theorem sum_by_tiles {M : Type*} [AddCommMonoid M] {T R N : Nat} (hN : T * R = N) (f : Fin N → M) :
    ∑ h : Fin N, f h = ∑ t : Fin T, ∑ r : Fin R, f ⟨R * t.val + r.val, tile_lt hN t r⟩ := by
  subst hN
  rw [← Equiv.sum_comp (finProdFinEquiv (m := T) (n := R)) f, Fintype.sum_prod_type]
  refine Finset.sum_congr rfl fun t _ => Finset.sum_congr rfl fun r _ => congrArg f (Fin.ext ?_)
  show r.val + R * t.val = R * t.val + r.val
  omega

/-- The indices of a rank-4 shape that a reduction over axes 2 and 3 sends to `(p, q)`, summed, are the two
    trailing coordinates, summed. -/
theorem sum_filter_drop_last2 {M : Type*} [AddCommMonoid M] {n0 n1 A B : Nat}
    (h : (⟨4, ![n0, n1, A, B]⟩ : Shape).Reduces [2, 3] ⟨2, ![n0, n1]⟩)
    (x : (⟨4, ![n0, n1, A, B]⟩ : Shape).Idx → M) (p : Fin n0) (q : Fin n1) :
    ∑ i ∈ Finset.univ.filter (fun i => h.drop i = ix2 p q), x i = ∑ a : Fin A, ∑ b : Fin B, x (ix4 p q a b) := by
  have hd0 : ∀ i, ((h.drop i 0 : Fin n0) : Nat) = ((i 0 : Fin n0) : Nat) := fun i => rfl
  have hd1 : ∀ i, ((h.drop i 1 : Fin n1) : Nat) = ((i 1 : Fin n1) : Nat) := fun i => rfl
  rw [← Finset.sum_product']
  refine Finset.sum_nbij' (fun i => ((i 2 : Fin A), (i 3 : Fin B))) (fun ab => ix4 p q ab.1 ab.2) ?_ ?_ ?_ ?_ ?_
  · intro i _; exact Finset.mem_product.2 ⟨Finset.mem_univ _, Finset.mem_univ _⟩
  · intro ab _
    refine Finset.mem_filter.2 ⟨Finset.mem_univ _, funext fun b => Fin.ext ?_⟩
    match b with
    | ⟨0, _⟩ => exact hd0 _
    | ⟨1, _⟩ => exact hd1 _
  · intro i hi
    have hj := (Finset.mem_filter.1 hi).2
    have e0 : (i 0 : Fin n0) = p := Fin.ext ((hd0 i).symm.trans (congrArg (fun j : (⟨2, ![n0, n1]⟩ : Shape).Idx => ((j 0 : Fin n0) : Nat)) hj))
    have e1 : (i 1 : Fin n1) = q := Fin.ext ((hd1 i).symm.trans (congrArg (fun j : (⟨2, ![n0, n1]⟩ : Shape).Idx => ((j 1 : Fin n1) : Nat)) hj))
    show ix4 p q (i 2) (i 3) = i
    rw [← e0, ← e1]; exact (eq_ix4 i).symm
  · intro ab _; rfl
  · intro i hi
    have hj := (Finset.mem_filter.1 hi).2
    have e0 : (i 0 : Fin n0) = p := Fin.ext ((hd0 i).symm.trans (congrArg (fun j : (⟨2, ![n0, n1]⟩ : Shape).Idx => ((j 0 : Fin n0) : Nat)) hj))
    have e1 : (i 1 : Fin n1) = q := Fin.ext ((hd1 i).symm.trans (congrArg (fun j : (⟨2, ![n0, n1]⟩ : Shape).Idx => ((j 1 : Fin n1) : Nat)) hj))
    show x i = x (ix4 p q (i 2) (i 3))
    rw [← e0, ← e1]; exact congrArg x (eq_ix4 i)

end Cert.LibSums

end
-- ==== Proof.Sums.lean ====
/-
  The sums both programs compute, as plain finite sums.

  An input is an array x[b, 0, D, H, W] with b < 4 and D, H, W < 192. For a batch element b its TOTAL is
      total x b = Σ_D Σ_H Σ_W x[b, 0, D, H, W].
  * The host's reduction over the axes 1, 2, 3, 4 sums, at result index b, exactly the entries whose first coordinate
    is b: that is the total (`sum_filter_batch`).
  * The kernel cuts the depth axis into 8 tiles of 24. For one tile's block z[0, 0, p, H, W] (p < 24) it flattens the
    block to 4608 rows of 192 lanes (row 192·p + H, lane W), sums the rows, then the lanes: over the extended reals,
    where such a reduction is the bare sum, this is Σ_p Σ_H Σ_W z[0, 0, p, H, W] (`flat_apply`).
  * The total is the sum over the 8 tiles of those block sums, depth D = 24·d + p (`total_by_tiles`).
  Addition on the extended reals is commutative and associative, so no finiteness is needed anywhere.
-/
import Idealize.ShloMosaic.Lib.ValueIdx
import Idealize.ShloMosaic.Lib.Pipeline.Value
import Idealize.ShloMosaic.PureOps.Reduce
import Idealize.ShloMosaic.PureOps.Ideal.Laws
import proofs.«133945_j64441689309643_2_alg».proof.Proof.LibSums

noncomputable section

open scoped BigOperators

namespace Cert.Sums

open Idealize.ShloMosaic Idealize.ShloMosaic.ValueIdx Cert.LibSums

/-- The total of batch element `b`: the sum over depth, height and width. -/
def total {M : Type*} [AddCommMonoid M] {n0 A B C : Nat} (x : (⟨5, ![n0, 1, A, B, C]⟩ : Shape).Idx → M) (b : Fin n0) : M :=
  ∑ D : Fin A, ∑ H : Fin B, ∑ W : Fin C, x (ix5 b 0 D H W)

/-- The entries a reduction over the axes 1, 2, 3, 4 sends to result index `b`, summed, are the total of `b`. -/
theorem sum_filter_batch {M : Type*} [AddCommMonoid M] {n0 A B C : Nat}
    (h : (⟨5, ![n0, 1, A, B, C]⟩ : Shape).ReducesTo [1, 2, 3, 4] ⟨1, ![n0]⟩)
    (x : (⟨5, ![n0, 1, A, B, C]⟩ : Shape).Idx → M) (b : Fin n0) :
    ∑ i ∈ Finset.univ.filter (fun i => h.drop i = ix1 b), x i = total x b := by
  have hd0 : ∀ i, ((h.drop i 0 : Fin n0) : Nat) = ((i 0 : Fin n0) : Nat) := fun i => rfl
  have ht : total x b = ∑ p : Fin A × Fin B × Fin C, x (ix5 b 0 p.1 p.2.1 p.2.2) := by
    unfold total
    rw [Fintype.sum_prod_type]
    refine Finset.sum_congr rfl fun D _ => ?_
    rw [Fintype.sum_prod_type]
  rw [ht]
  -- an index whose first coordinate is `b` is `(b, 0, D, H, W)` of its last three coordinates (coordinate 1 ranges over one value)
  have key : ∀ i : (⟨5, ![n0, 1, A, B, C]⟩ : Shape).Idx, h.drop i = ix1 b → ix5 b 0 (i 2) (i 3) (i 4) = i := by
    intro i hj
    have e0 : ((i 0 : Fin n0) : Nat) = b.val := (hd0 i).symm.trans (congrArg (fun j : (⟨1, ![n0]⟩ : Shape).Idx => ((j 0 : Fin n0) : Nat)) hj)
    funext a
    apply Fin.ext
    match a with
    | ⟨0, _⟩ => exact e0.symm
    | ⟨1, _⟩ => have h1 : ((i 1 : Fin 1) : Nat) < 1 := (i 1 : Fin 1).isLt; show 0 = ((i 1 : Fin 1) : Nat); omega
    | ⟨2, _⟩ => rfl
    | ⟨3, _⟩ => rfl
    | ⟨4, _⟩ => rfl
  refine Finset.sum_nbij' (fun i => ((i 2 : Fin A), (i 3 : Fin B), (i 4 : Fin C))) (fun p => ix5 b 0 p.1 p.2.1 p.2.2) ?_ ?_ ?_ ?_ ?_
  · intro i _; exact Finset.mem_univ _
  · intro p _
    refine Finset.mem_filter.2 ⟨Finset.mem_univ _, funext fun a => Fin.ext ?_⟩
    match a with
    | ⟨0, _⟩ => exact hd0 _
  · intro i hi; exact key i (Finset.mem_filter.1 hi).2
  · intro p _; rfl
  · intro i hi; exact congrArg x (key i (Finset.mem_filter.1 hi).2).symm

/-- The total, tile by tile along the depth axis: depth `P·d + p` is position `p` of tile `d`. -/
theorem total_by_tiles {M : Type*} [AddCommMonoid M] {n0 T P A B C : Nat} (hA : T * P = A)
    (x : (⟨5, ![n0, 1, A, B, C]⟩ : Shape).Idx → M) (b : Fin n0) :
    total x b = ∑ d : Fin T, ∑ p : Fin P, ∑ H : Fin B, ∑ W : Fin C, x (ix5 b 0 ⟨P * d.val + p.val, tile_lt hA d p⟩ H W) := by
  unfold total
  exact sum_by_tiles hA (fun D => ∑ H : Fin B, ∑ W : Fin C, x (ix5 b 0 D H W))

/-! ## One block's partial sum, over the extended reals -/

abbrev Blk : Shape := ⟨5, ![1, 1, 24, 192, 192]⟩
abbrev Flat : Shape := ⟨2, ![4608, 192]⟩
abbrev Lanes : Shape := ⟨1, ![192]⟩
abbrev Row : Shape := ⟨2, ![1, 192]⟩
abbrev One1 : Shape := ⟨1, ![1]⟩
abbrev One2 : Shape := ⟨2, ![1, 1]⟩
abbrev One3 : Shape := ⟨3, ![1, 1, 1]⟩

/-- The block's entries summed: depth slice, height, width. -/
def blockSum (z : Blk.Idx → EReal) : EReal := ∑ p : Fin 24, ∑ H : Fin 192, ∑ W : Fin 192, z (ix5 0 0 p H W)

/-- The flattened block at row `192·p + H`, lane `W`, is the block at depth slice `p`, height `H`, width `W`:
    the two indices have the same row-major position. -/
theorem flat_at (z : Blk.Idx → EReal) (h1 : Blk.ShapeCasts Flat) (p : Fin 24) (H W : Fin 192) (hr : 192 * p.val + H.val < 4608) :
    shapeCast Flat z h1 (ix2 ⟨192 * p.val + H.val, hr⟩ W) = z (ix5 0 0 p H W) := by
  refine shapeCast_apply z h1 _ _ ?_
  rw [Shape.rowMajor_val_five, Shape.rowMajor_val_two]
  show ((((0 * 1 + 0) * 24 + p.val) * 192 + H.val) * 192 + W.val) = (192 * p.val + H.val) * 192 + W.val
  omega

set_option maxHeartbeats 1000000 in
/-- The kernel's reduction chain on a block — flatten to 4608 × 192, sum the rows, sum the lanes, reshape to one
    element — is, over the extended reals, the block's sum. -/
theorem flat_apply (z : Blk.Idx → EReal) (h1 : Blk.ShapeCasts Flat) (h2 : Flat.Reduces [0] Lanes) (h3 : Lanes.ShapeCasts Row)
    (h4 : Row.Reduces [1] One1) (h5 : One1.ShapeCasts One2) (h6 : One2.ShapeCasts One3) (j : One3.Idx) :
    shapeCast One3 (shapeCast One2 (multiReduction (F := Ideal) .add [1] One1
      (shapeCast Row (multiReduction (F := Ideal) .add [0] Lanes (shapeCast Flat z h1) 0x00000000#32 h2 (.inl rfl) rfl) h3)
      0x00000000#32 h4 (.inl rfl) rfl) h5) h6 j = blockSum z := by
  -- the two trailing reshapes of a one-element array read its one element
  refine (shapeCast_apply _ h6 j (ix2 0 0) (by
    rw [Shape.rowMajor_val_two, Shape.rowMajor_val_three]; have := (j 0).isLt; have := (j 1).isLt; have := (j 2).isLt; simp at *; omega)).trans ?_
  refine (shapeCast_apply _ h5 (ix2 0 0) (ix1 0) (by rw [Shape.rowMajor_val_one, Shape.rowMajor_val_two]; rfl)).trans ?_
  -- the lane reduction is the sum over the 192 lanes
  refine (Ideal.multiReduction_add_single _ 0x00000000#32 h4 (.inl rfl) rfl (ix1 0)).trans ?_
  show ∑ W : Fin 192, shapeCast Row (multiReduction (F := Ideal) .add [0] Lanes (shapeCast Flat z h1) 0x00000000#32 h2 (.inl rfl) rfl) h3
      (h4.lift (ix1 0) W) = blockSum z
  -- each lane holds the sum over the 4608 rows, row 192·p + H being depth slice p at height H
  have lanes : ∀ W : Fin 192, shapeCast Row (multiReduction (F := Ideal) .add [0] Lanes (shapeCast Flat z h1) 0x00000000#32 h2 (.inl rfl) rfl) h3
      (h4.lift (ix1 0) W) = ∑ p : Fin 24, ∑ H : Fin 192, z (ix5 0 0 p H W) := by
    intro W
    refine (shapeCast_apply _ h3 _ (ix1 W) (by
      rw [Shape.rowMajor_val_one, Shape.rowMajor_val_two]
      show W.val = h4.liftVal (ix1 0) W.val 0 * 192 + h4.liftVal (ix1 0) W.val 1
      simp [Shape.Reduces.liftVal])).trans ?_
    refine (Ideal.multiReduction_add_single _ 0x00000000#32 h2 (.inl rfl) rfl (ix1 W)).trans ?_
    show ∑ r : Fin 4608, shapeCast Flat z h1 (h2.lift (ix1 W) r) = _
    refine (sum_by_tiles (T := 24) (R := 192) (N := 4608) rfl _).trans ?_
    refine Finset.sum_congr rfl fun p _ => Finset.sum_congr rfl fun H _ => ?_
    have e : h2.lift (ix1 W) ⟨192 * p.val + H.val, tile_lt rfl p H⟩ = ix2 ⟨192 * p.val + H.val, tile_lt rfl p H⟩ W := by
      funext a
      apply Fin.ext
      match a with
      | ⟨0, _⟩ => show h2.liftVal (ix1 W) (192 * p.val + H.val) 0 = 192 * p.val + H.val; simp [Shape.Reduces.liftVal]
      | ⟨1, _⟩ => show h2.liftVal (ix1 W) (192 * p.val + H.val) 1 = W.val; simp [Shape.Reduces.liftVal]
    exact (congrArg (shapeCast Flat z h1) e).trans (flat_at z h1 p H W _)
  refine (Finset.sum_congr rfl fun W _ => lanes W).trans ?_
  unfold blockSum
  rw [Finset.sum_comm]
  refine Finset.sum_congr rfl fun p _ => ?_
  rw [Finset.sum_comm]

end Cert.Sums

end
-- ==== Proof.IdealValue.lean ====
/-
  What the kernel's five result arrays hold when its region ends, over the extended reals.

  Write x0 for the first argument (y_pred) and x1 for the second (y_true), both indexed [b, 0, D, H, W].
  * The block an input window stages at point t = 8·b + d is the slab D ∈ [24·d, 24·d + 24) of batch element b: its
    entry [0, 0, p, H, W] is the argument's entry [b, 0, 24·d + p, H, W].
  * Each partial sum of a block is the plain sum over the block of x1, x0, x1·x1, x0·x0 or x1·x0.
  * After the eighth tile (d = 7) the running sum of an output cell is the sum over the 8 tiles of those block sums,
    i.e. the sum over ALL depths, heights and widths: the batch element's total.
  * Output cell b is written back to entry [b, 0, 0] of its array exactly after point 8·b + 7, and these four
    write-backs cover the array. So each result array holds, at [b, 0, 0], the batch element's total.
-/
import proofs.«133945_j64441689309643_2_alg».proof.Proof.IdealFrame
import proofs.«133945_j64441689309643_2_alg».proof.Proof.Sums
import Idealize.ShloMosaic.Lib.Pipeline.Value
import Idealize.ShloMosaic.Lib.Tactic

set_option maxRecDepth 16384

noncomputable section

open scoped BigOperators

namespace Cert.KernelIdeal.Acc

open Cert.KernelIdeal Cert.KernelIdeal.Gen
open Idealize.ShloMosaic Idealize.ShloMosaic.TcCoe Idealize.SL.Sem Idealize.ShloMosaic.ValueIdx
open Idealize.ShloMosaic.Pipeline (Dat)
open Cert.Sums Cert.LibSums

variable (m : (ℓ : Loc nD τ sig) → Buf (Elt Ideal) ℓ) (ρ : Dev nD → PrngReg)

/-! ## The index maps, decided over the 32 grid points -/

/-- An input window's block index at point `t`: batch element `t / 8`, depth tile `t % 8`. -/
theorem in0_idx : ∀ t : Fin cfg0.N, win0_0.index t 0 = t.val / 8 ∧ win0_0.index t 1 = 0 ∧ win0_0.index t 2 = t.val % 8 ∧ win0_0.index t 3 = 0 ∧ win0_0.index t 4 = 0 :=
  (by decide +kernel : ∀ t : Fin grid0.N, win0_0.index t 0 = t.val / 8 ∧ win0_0.index t 1 = 0 ∧ win0_0.index t 2 = t.val % 8 ∧ win0_0.index t 3 = 0 ∧ win0_0.index t 4 = 0)
theorem in1_idx : ∀ t : Fin cfg0.N, win0_1.index t 0 = t.val / 8 ∧ win0_1.index t 1 = 0 ∧ win0_1.index t 2 = t.val % 8 ∧ win0_1.index t 3 = 0 ∧ win0_1.index t 4 = 0 :=
  (by decide +kernel : ∀ t : Fin grid0.N, win0_1.index t 0 = t.val / 8 ∧ win0_1.index t 1 = 0 ∧ win0_1.index t 2 = t.val % 8 ∧ win0_1.index t 3 = 0 ∧ win0_1.index t 4 = 0)
/-- Output window 2's block at point `t` is the one cell of batch element `t / 8`. -/
theorem out2_idx : ∀ t : Fin cfg0.N, win0_2.index t 0 = t.val / 8 ∧ win0_2.index t 1 = 0 ∧ win0_2.index t 2 = 0
    ∧ win0_2.xsize (grid0.coords t) 0 = 1 ∧ win0_2.xsize (grid0.coords t) 1 = 1 ∧ win0_2.xsize (grid0.coords t) 2 = 1 :=
  (by decide +kernel : ∀ t : Fin grid0.N, win0_2.index t 0 = t.val / 8 ∧ win0_2.index t 1 = 0 ∧ win0_2.index t 2 = 0
    ∧ win0_2.xsize (grid0.coords t) 0 = 1 ∧ win0_2.xsize (grid0.coords t) 1 = 1 ∧ win0_2.xsize (grid0.coords t) 2 = 1)
/-- Output window 3's block at point `t` is the one cell of batch element `t / 8`. -/
theorem out3_idx : ∀ t : Fin cfg0.N, win0_3.index t 0 = t.val / 8 ∧ win0_3.index t 1 = 0 ∧ win0_3.index t 2 = 0
    ∧ win0_3.xsize (grid0.coords t) 0 = 1 ∧ win0_3.xsize (grid0.coords t) 1 = 1 ∧ win0_3.xsize (grid0.coords t) 2 = 1 :=
  (by decide +kernel : ∀ t : Fin grid0.N, win0_3.index t 0 = t.val / 8 ∧ win0_3.index t 1 = 0 ∧ win0_3.index t 2 = 0
    ∧ win0_3.xsize (grid0.coords t) 0 = 1 ∧ win0_3.xsize (grid0.coords t) 1 = 1 ∧ win0_3.xsize (grid0.coords t) 2 = 1)
/-- Output window 4's block at point `t` is the one cell of batch element `t / 8`. -/
theorem out4_idx : ∀ t : Fin cfg0.N, win0_4.index t 0 = t.val / 8 ∧ win0_4.index t 1 = 0 ∧ win0_4.index t 2 = 0
    ∧ win0_4.xsize (grid0.coords t) 0 = 1 ∧ win0_4.xsize (grid0.coords t) 1 = 1 ∧ win0_4.xsize (grid0.coords t) 2 = 1 :=
  (by decide +kernel : ∀ t : Fin grid0.N, win0_4.index t 0 = t.val / 8 ∧ win0_4.index t 1 = 0 ∧ win0_4.index t 2 = 0
    ∧ win0_4.xsize (grid0.coords t) 0 = 1 ∧ win0_4.xsize (grid0.coords t) 1 = 1 ∧ win0_4.xsize (grid0.coords t) 2 = 1)
/-- Output window 5's block at point `t` is the one cell of batch element `t / 8`. -/
theorem out5_idx : ∀ t : Fin cfg0.N, win0_5.index t 0 = t.val / 8 ∧ win0_5.index t 1 = 0 ∧ win0_5.index t 2 = 0
    ∧ win0_5.xsize (grid0.coords t) 0 = 1 ∧ win0_5.xsize (grid0.coords t) 1 = 1 ∧ win0_5.xsize (grid0.coords t) 2 = 1 :=
  (by decide +kernel : ∀ t : Fin grid0.N, win0_5.index t 0 = t.val / 8 ∧ win0_5.index t 1 = 0 ∧ win0_5.index t 2 = 0
    ∧ win0_5.xsize (grid0.coords t) 0 = 1 ∧ win0_5.xsize (grid0.coords t) 1 = 1 ∧ win0_5.xsize (grid0.coords t) 2 = 1)
/-- Output window 6's block at point `t` is the one cell of batch element `t / 8`. -/
theorem out6_idx : ∀ t : Fin cfg0.N, win0_6.index t 0 = t.val / 8 ∧ win0_6.index t 1 = 0 ∧ win0_6.index t 2 = 0
    ∧ win0_6.xsize (grid0.coords t) 0 = 1 ∧ win0_6.xsize (grid0.coords t) 1 = 1 ∧ win0_6.xsize (grid0.coords t) 2 = 1 :=
  (by decide +kernel : ∀ t : Fin grid0.N, win0_6.index t 0 = t.val / 8 ∧ win0_6.index t 1 = 0 ∧ win0_6.index t 2 = 0
    ∧ win0_6.xsize (grid0.coords t) 0 = 1 ∧ win0_6.xsize (grid0.coords t) 1 = 1 ∧ win0_6.xsize (grid0.coords t) 2 = 1)

/-! ## An input block's entry is an entry of the argument -/

/-- The two arguments as the region finds them. -/
abbrev X0 (c : Dev nD) : S4x1x192x192x192.Idx → EReal := m ((c : Thread nD τ).loc main_arg0)
abbrev X1 (c : Dev nD) : S4x1x192x192x192.Idx → EReal := m ((c : Thread nD τ).loc main_arg1)

/-- Entry [0, 0, p, H, W] of input window 0's block at point `t` is entry [t / 8, 0, 24·(t % 8) + p, H, W] of argument 0. -/
theorem iblk0_at (c : Dev nD) (t : Fin cfg0.N) (p : Fin 24) (H W : Fin 192) (k : S4x1x192x192x192.Idx)
    (hk0 : (k 0).val = t.val / 8) (hk1 : (k 1).val = 0) (hk2 : (k 2).val = 24 * (t.val % 8) + p.val)
    (hk3 : (k 3).val = H.val) (hk4 : (k 4).val = W.val) :
    (iblk m c 0 t : S1x1x24x192x192.Idx → EReal) (ix5 0 0 p H W) = X0 m c k := by
  obtain ⟨i0, i1, i2, i3, i4⟩ := in0_idx t
  unfold iblk
  rw [View.read_apply]
  show m (c.tc.loc main_arg0) _ = m (c.tc.loc main_arg0) _
  congr 1
  funext a
  apply Fin.ext
  match a with
  | ⟨0, _⟩ => show win0_0.index t 0 * 1 + 1 * 0 = (k 0).val; rw [i0, hk0]; omega
  | ⟨1, _⟩ => show win0_0.index t 1 * 1 + 1 * 0 = (k 1).val; rw [i1, hk1]
  | ⟨2, _⟩ => show win0_0.index t 2 * 24 + 1 * p.val = (k 2).val; rw [i2, hk2]; omega
  | ⟨3, _⟩ => show win0_0.index t 3 * 192 + 1 * H.val = (k 3).val; rw [i3, hk3]; omega
  | ⟨4, _⟩ => show win0_0.index t 4 * 192 + 1 * W.val = (k 4).val; rw [i4, hk4]; omega

/-- Entry [0, 0, p, H, W] of input window 1's block at point `t` is entry [t / 8, 0, 24·(t % 8) + p, H, W] of argument 1. -/
theorem iblk1_at (c : Dev nD) (t : Fin cfg0.N) (p : Fin 24) (H W : Fin 192) (k : S4x1x192x192x192.Idx)
    (hk0 : (k 0).val = t.val / 8) (hk1 : (k 1).val = 0) (hk2 : (k 2).val = 24 * (t.val % 8) + p.val)
    (hk3 : (k 3).val = H.val) (hk4 : (k 4).val = W.val) :
    (iblk m c 1 t : S1x1x24x192x192.Idx → EReal) (ix5 0 0 p H W) = X1 m c k := by
  obtain ⟨i0, i1, i2, i3, i4⟩ := in1_idx t
  unfold iblk
  rw [View.read_apply]
  show m (c.tc.loc main_arg1) _ = m (c.tc.loc main_arg1) _
  congr 1
  funext a
  apply Fin.ext
  match a with
  | ⟨0, _⟩ => show win0_1.index t 0 * 1 + 1 * 0 = (k 0).val; rw [i0, hk0]; omega
  | ⟨1, _⟩ => show win0_1.index t 1 * 1 + 1 * 0 = (k 1).val; rw [i1, hk1]
  | ⟨2, _⟩ => show win0_1.index t 2 * 24 + 1 * p.val = (k 2).val; rw [i2, hk2]; omega
  | ⟨3, _⟩ => show win0_1.index t 3 * 192 + 1 * H.val = (k 3).val; rw [i3, hk3]; omega
  | ⟨4, _⟩ => show win0_1.index t 4 * 192 + 1 * W.val = (k 4).val; rw [i4, hk4]; omega

/-! ## The partial sums are block sums -/

theorem part4_at (u0 u1 : Vec Ideal S1x1x24x192x192 .f32) (j : S1x1x1.Idx) : (part4 u0 u1 j : EReal) = blockSum u1 :=
  flat_apply u1 _ _ _ _ _ _ j
theorem part5_at (u0 u1 : Vec Ideal S1x1x24x192x192 .f32) (j : S1x1x1.Idx) : (part5 u0 u1 j : EReal) = blockSum u0 :=
  flat_apply u0 _ _ _ _ _ _ j
theorem part6_at (u0 u1 : Vec Ideal S1x1x24x192x192 .f32) (j : S1x1x1.Idx) :
    (part6 u0 u1 j : EReal) = blockSum (fun y => FloatOps.mulf (F := Ideal) (φ := .f32) (u1 y) (u1 y)) :=
  flat_apply (fun y => FloatOps.mulf (F := Ideal) (φ := .f32) (u1 y) (u1 y)) _ _ _ _ _ _ j
theorem part7_at (u0 u1 : Vec Ideal S1x1x24x192x192 .f32) (j : S1x1x1.Idx) :
    (part7 u0 u1 j : EReal) = blockSum (fun y => FloatOps.mulf (F := Ideal) (φ := .f32) (u0 y) (u0 y)) :=
  flat_apply (fun y => FloatOps.mulf (F := Ideal) (φ := .f32) (u0 y) (u0 y)) _ _ _ _ _ _ j
theorem part8_at (u0 u1 : Vec Ideal S1x1x24x192x192 .f32) (j : S1x1x1.Idx) :
    (part8 u0 u1 j : EReal) = blockSum (fun y => FloatOps.mulf (F := Ideal) (φ := .f32) (u1 y) (u0 y)) :=
  flat_apply (fun y => FloatOps.mulf (F := Ideal) (φ := .f32) (u1 y) (u0 y)) _ _ _ _ _ _ j

/-! ## Eight tiles make a batch element's total -/

theorem pt_tile (b : Fin 4) (d : Fin 8) : (pt (8 * b.val + d.val)).val = 8 * b.val + d.val := by
  unfold pt
  rw [dif_pos (by rw [show cfg0.N = 32 from N_0]; omega)]

/-- The block sums of the 8 depth tiles of batch element `b`, of any entrywise combination `φ` of the two inputs,
    add up to the total of that combination over the whole batch element. -/
theorem tiles_total (φ : EReal → EReal → EReal) (c : Dev nD) (b : Fin 4) :
    ∑ d : Fin 8, blockSum (fun y => φ ((iblk m c 0 (pt (8 * b.val + d.val)) : S1x1x24x192x192.Idx → EReal) y)
        ((iblk m c 1 (pt (8 * b.val + d.val)) : S1x1x24x192x192.Idx → EReal) y))
      = total (fun i => φ (X0 m c i) (X1 m c i)) b := by
  rw [total_by_tiles (T := 8) (P := 24) rfl]
  refine Finset.sum_congr rfl fun d _ => ?_
  unfold blockSum
  refine Finset.sum_congr rfl fun p _ => Finset.sum_congr rfl fun H _ => Finset.sum_congr rfl fun W _ => ?_
  have hv := pt_tile b d
  exact congrArg₂ φ
    (iblk0_at m c _ p H W (ix5 b 0 ⟨24 * d.val + p.val, tile_lt rfl d p⟩ H W) (by show b.val = _; rw [hv]; omega) rfl
      (by show 24 * d.val + p.val = _; rw [hv]; omega) rfl rfl)
    (iblk1_at m c _ p H W (ix5 b 0 ⟨24 * d.val + p.val, tile_lt rfl d p⟩ H W) (by show b.val = _; rw [hv]; omega) rfl
      (by show 24 * d.val + p.val = _; rw [hv]; omega) rfl rfl)

/-! ## The running sum after the last tile -/

theorem accum_mod0 (P : Fin cfg0.N → Vec Ideal S1x1x1 .f32) (n : ℕ) (h : n % 8 = 0) : accum P n = P (pt n) := by
  cases n with
  | zero => rfl
  | succ n =>
    show (if (n + 1) % 8 = 0 then P (pt (n + 1)) else addf (accum P n) (P (pt (n + 1)))) = _
    rw [if_pos h]

theorem accum_step (P : Fin cfg0.N → Vec Ideal S1x1x1 .f32) (n : ℕ) (h : ¬(n + 1) % 8 = 0) :
    accum P (n + 1) = addf (accum P n) (P (pt (n + 1))) := by
  show (if (n + 1) % 8 = 0 then P (pt (n + 1)) else addf (accum P n) (P (pt (n + 1)))) = _
  rw [if_neg h]

/-- Over the extended reals, after tile `d` of batch element `b` the running sum is the sum of the partial sums of
    the tiles 0 … d. -/
theorem accum_sum (P : Fin cfg0.N → Vec Ideal S1x1x1 .f32) (b : ℕ) (j : S1x1x1.Idx) :
    ∀ d, d < 8 → (accum P (8 * b + d) j : EReal) = ∑ e ∈ Finset.range (d + 1), (P (pt (8 * b + e)) j : EReal)
  | 0, _ => by rw [accum_mod0 P (8 * b + 0) (by omega)]; simp
  | d + 1, hd => by
    rw [show 8 * b + (d + 1) = (8 * b + d) + 1 from rfl, accum_step P (8 * b + d) (by omega), Finset.sum_range_succ,
      ← accum_sum P b j d (by omega)]
    rfl

/-- If every partial sum is the block sum of the combination `φ`, the running sum after tile 7 of batch element `b` is the
    total of `φ` over `b`. -/
theorem acc_total (φ : EReal → EReal → EReal) (c : Dev nD) (P : Fin cfg0.N → Vec Ideal S1x1x1 .f32)
    (hP : ∀ t j, (P t j : EReal) = blockSum (fun y => φ ((iblk m c 0 t : S1x1x24x192x192.Idx → EReal) y)
      ((iblk m c 1 t : S1x1x24x192x192.Idx → EReal) y)))
    (b : Fin 4) (j : S1x1x1.Idx) : (accum P (8 * b.val + 7) j : EReal) = total (fun i => φ (X0 m c i) (X1 m c i)) b := by
  rw [accum_sum P b.val j 7 (by omega), Finset.sum_range]
  refine (Finset.sum_congr rfl fun d _ => hP _ j).trans ?_
  exact tiles_total m φ c b

/-! ## The five result arrays -/

/-- A result array: entry [b, 0, 0] is the total over batch element `b` of the combination `φ` of the two inputs. -/
def G (φ : EReal → EReal → EReal) (c : Dev nD) : S4x1x1.Idx → EReal :=
  fun i => total (fun k => φ (X0 m c k) (X1 m c k)) (i 0 : Fin 4)

/-- The write-back of output 2 after point `t` (a tile d = 7) writes block `t` of the array of totals. -/
theorem flushed2 (c : Dev nD) (t : Fin cfg0.N) (hf : (cfg0.win 2).flush t = true) :
    (dats m 0 c).flushed 2 t = ((cfg0.win 2).blk t).view.read (Elt Ideal) (G m (fun _ b => b) c) := by
  have h7 : t.val % 8 = 7 := (flush0_2 t).mp hf
  have hN : t.val < 32 := lt_of_lt_of_eq t.isLt (show cfg0.N = 32 from N_0)
  have hb : t.val / 8 < 4 := by omega
  obtain ⟨i0, i1, i2, -, -, -⟩ := out2_idx t
  show (cfg0.win 2).cut (grid0.coords t) ((dats m 0 c).after 2 t) = _
  rw [after2]
  funext y
  rw [View.read_apply]
  show (accum (P4 m c) t.val y : EReal) = G m (fun _ b => b) c (((cfg0.win 2).blk t).view.emb y)
  have e1 : (accum (P4 m c) t.val y : EReal) = accum (P4 m c) (8 * (⟨t.val / 8, hb⟩ : Fin 4).val + 7) y :=
    congrArg (fun n => (accum (P4 m c) n y : EReal)) (by show t.val = 8 * (t.val / 8) + 7; omega)
  refine (e1.trans (acc_total m (fun _ b => b) c (P4 m c) (fun t j => part4_at (iblk m c 0 t) (iblk m c 1 t) j) ⟨t.val / 8, hb⟩ y)).trans ?_
  refine congrArg (total _) (Fin.ext ?_)
  have hy : (y 0).val < 1 := (y 0).isLt
  show t.val / 8 = win0_2.index t 0 * 1 + 1 * (y 0).val
  rw [i0]; omega

/-- Every entry of result array 2 lies in the block written back after tile 7 of its batch element. -/
theorem cover2 (c : Dev nD) (i : S4x1x1.Idx) : ∃ t : Fin cfg0.N, (cfg0.win 2).flush t = true ∧ i ∈ ((cfg0.win 2).blk t).view.set := by
  have h0 : (i 0).val < 4 := (i 0).isLt
  have h1 : (i 1).val < 1 := (i 1).isLt
  have h2 : (i 2).val < 1 := (i 2).isLt
  have hlt : 8 * (i 0).val + 7 < cfg0.N := by rw [show cfg0.N = 32 from N_0]; omega
  refine ⟨⟨8 * (i 0).val + 7, hlt⟩, (flush0_2 _).mpr (by show (8 * (i 0).val + 7) % 8 = 7; omega), ?_⟩
  obtain ⟨j0, j1, j2, s0, s1, s2⟩ := out2_idx ⟨8 * (i 0).val + 7, hlt⟩
  show i ∈ ((View.whole main_v0_0).slice (win0_2.rect ⟨8 * (i 0).val + 7, hlt⟩)).set
  rw [View.set_slice_whole, Rect.mem_set_unit]
  intro a
  match a with
  | ⟨0, _⟩ =>
    show win0_2.index ⟨8 * (i 0).val + 7, hlt⟩ 0 * 1 ≤ (i 0).val ∧ (i 0).val < win0_2.index ⟨8 * (i 0).val + 7, hlt⟩ 0 * 1 + win0_2.xsize (grid0.coords ⟨8 * (i 0).val + 7, hlt⟩) 0
    rw [j0, s0]; show (8 * (i 0).val + 7) / 8 * 1 ≤ (i 0).val ∧ (i 0).val < (8 * (i 0).val + 7) / 8 * 1 + 1; omega
  | ⟨1, _⟩ =>
    show win0_2.index ⟨8 * (i 0).val + 7, hlt⟩ 1 * 1 ≤ (i 1).val ∧ (i 1).val < win0_2.index ⟨8 * (i 0).val + 7, hlt⟩ 1 * 1 + win0_2.xsize (grid0.coords ⟨8 * (i 0).val + 7, hlt⟩) 1
    rw [j1, s1]; omega
  | ⟨2, _⟩ =>
    show win0_2.index ⟨8 * (i 0).val + 7, hlt⟩ 2 * 1 ≤ (i 2).val ∧ (i 2).val < win0_2.index ⟨8 * (i 0).val + 7, hlt⟩ 2 * 1 + win0_2.xsize (grid0.coords ⟨8 * (i 0).val + 7, hlt⟩) 2
    rw [j2, s2]; omega

/-- So result array 2 ends holding the totals. -/
theorem final2 (c : Dev nD) : (dats m 0 c).arrAt 2 cfg0.N = G m (fun _ b => b) c :=
  (dats m 0 c).arrAt_eq_of_cover 2 (G m (fun _ b => b) c) (flushed2 m c) (cover2 c)

/-- The write-back of output 3 after point `t` (a tile d = 7) writes block `t` of the array of totals. -/
theorem flushed3 (c : Dev nD) (t : Fin cfg0.N) (hf : (cfg0.win 3).flush t = true) :
    (dats m 0 c).flushed 3 t = ((cfg0.win 3).blk t).view.read (Elt Ideal) (G m (fun a _ => a) c) := by
  have h7 : t.val % 8 = 7 := (flush0_3 t).mp hf
  have hN : t.val < 32 := lt_of_lt_of_eq t.isLt (show cfg0.N = 32 from N_0)
  have hb : t.val / 8 < 4 := by omega
  obtain ⟨i0, i1, i2, -, -, -⟩ := out3_idx t
  show (cfg0.win 3).cut (grid0.coords t) ((dats m 0 c).after 3 t) = _
  rw [after3]
  funext y
  rw [View.read_apply]
  show (accum (P5 m c) t.val y : EReal) = G m (fun a _ => a) c (((cfg0.win 3).blk t).view.emb y)
  have e1 : (accum (P5 m c) t.val y : EReal) = accum (P5 m c) (8 * (⟨t.val / 8, hb⟩ : Fin 4).val + 7) y :=
    congrArg (fun n => (accum (P5 m c) n y : EReal)) (by show t.val = 8 * (t.val / 8) + 7; omega)
  refine (e1.trans (acc_total m (fun a _ => a) c (P5 m c) (fun t j => part5_at (iblk m c 0 t) (iblk m c 1 t) j) ⟨t.val / 8, hb⟩ y)).trans ?_
  refine congrArg (total _) (Fin.ext ?_)
  have hy : (y 0).val < 1 := (y 0).isLt
  show t.val / 8 = win0_3.index t 0 * 1 + 1 * (y 0).val
  rw [i0]; omega

/-- Every entry of result array 3 lies in the block written back after tile 7 of its batch element. -/
theorem cover3 (c : Dev nD) (i : S4x1x1.Idx) : ∃ t : Fin cfg0.N, (cfg0.win 3).flush t = true ∧ i ∈ ((cfg0.win 3).blk t).view.set := by
  have h0 : (i 0).val < 4 := (i 0).isLt
  have h1 : (i 1).val < 1 := (i 1).isLt
  have h2 : (i 2).val < 1 := (i 2).isLt
  have hlt : 8 * (i 0).val + 7 < cfg0.N := by rw [show cfg0.N = 32 from N_0]; omega
  refine ⟨⟨8 * (i 0).val + 7, hlt⟩, (flush0_3 _).mpr (by show (8 * (i 0).val + 7) % 8 = 7; omega), ?_⟩
  obtain ⟨j0, j1, j2, s0, s1, s2⟩ := out3_idx ⟨8 * (i 0).val + 7, hlt⟩
  show i ∈ ((View.whole main_v0_1).slice (win0_3.rect ⟨8 * (i 0).val + 7, hlt⟩)).set
  rw [View.set_slice_whole, Rect.mem_set_unit]
  intro a
  match a with
  | ⟨0, _⟩ =>
    show win0_3.index ⟨8 * (i 0).val + 7, hlt⟩ 0 * 1 ≤ (i 0).val ∧ (i 0).val < win0_3.index ⟨8 * (i 0).val + 7, hlt⟩ 0 * 1 + win0_3.xsize (grid0.coords ⟨8 * (i 0).val + 7, hlt⟩) 0
    rw [j0, s0]; show (8 * (i 0).val + 7) / 8 * 1 ≤ (i 0).val ∧ (i 0).val < (8 * (i 0).val + 7) / 8 * 1 + 1; omega
  | ⟨1, _⟩ =>
    show win0_3.index ⟨8 * (i 0).val + 7, hlt⟩ 1 * 1 ≤ (i 1).val ∧ (i 1).val < win0_3.index ⟨8 * (i 0).val + 7, hlt⟩ 1 * 1 + win0_3.xsize (grid0.coords ⟨8 * (i 0).val + 7, hlt⟩) 1
    rw [j1, s1]; omega
  | ⟨2, _⟩ =>
    show win0_3.index ⟨8 * (i 0).val + 7, hlt⟩ 2 * 1 ≤ (i 2).val ∧ (i 2).val < win0_3.index ⟨8 * (i 0).val + 7, hlt⟩ 2 * 1 + win0_3.xsize (grid0.coords ⟨8 * (i 0).val + 7, hlt⟩) 2
    rw [j2, s2]; omega

/-- So result array 3 ends holding the totals. -/
theorem final3 (c : Dev nD) : (dats m 0 c).arrAt 3 cfg0.N = G m (fun a _ => a) c :=
  (dats m 0 c).arrAt_eq_of_cover 3 (G m (fun a _ => a) c) (flushed3 m c) (cover3 c)

/-- The write-back of output 4 after point `t` (a tile d = 7) writes block `t` of the array of totals. -/
theorem flushed4 (c : Dev nD) (t : Fin cfg0.N) (hf : (cfg0.win 4).flush t = true) :
    (dats m 0 c).flushed 4 t = ((cfg0.win 4).blk t).view.read (Elt Ideal) (G m (fun _ b => FloatOps.mulf (F := Ideal) (φ := .f32) b b) c) := by
  have h7 : t.val % 8 = 7 := (flush0_4 t).mp hf
  have hN : t.val < 32 := lt_of_lt_of_eq t.isLt (show cfg0.N = 32 from N_0)
  have hb : t.val / 8 < 4 := by omega
  obtain ⟨i0, i1, i2, -, -, -⟩ := out4_idx t
  show (cfg0.win 4).cut (grid0.coords t) ((dats m 0 c).after 4 t) = _
  rw [after4]
  funext y
  rw [View.read_apply]
  show (accum (P6 m c) t.val y : EReal) = G m (fun _ b => FloatOps.mulf (F := Ideal) (φ := .f32) b b) c (((cfg0.win 4).blk t).view.emb y)
  have e1 : (accum (P6 m c) t.val y : EReal) = accum (P6 m c) (8 * (⟨t.val / 8, hb⟩ : Fin 4).val + 7) y :=
    congrArg (fun n => (accum (P6 m c) n y : EReal)) (by show t.val = 8 * (t.val / 8) + 7; omega)
  refine (e1.trans (acc_total m (fun _ b => FloatOps.mulf (F := Ideal) (φ := .f32) b b) c (P6 m c) (fun t j => part6_at (iblk m c 0 t) (iblk m c 1 t) j) ⟨t.val / 8, hb⟩ y)).trans ?_
  refine congrArg (total _) (Fin.ext ?_)
  have hy : (y 0).val < 1 := (y 0).isLt
  show t.val / 8 = win0_4.index t 0 * 1 + 1 * (y 0).val
  rw [i0]; omega

/-- Every entry of result array 4 lies in the block written back after tile 7 of its batch element. -/
theorem cover4 (c : Dev nD) (i : S4x1x1.Idx) : ∃ t : Fin cfg0.N, (cfg0.win 4).flush t = true ∧ i ∈ ((cfg0.win 4).blk t).view.set := by
  have h0 : (i 0).val < 4 := (i 0).isLt
  have h1 : (i 1).val < 1 := (i 1).isLt
  have h2 : (i 2).val < 1 := (i 2).isLt
  have hlt : 8 * (i 0).val + 7 < cfg0.N := by rw [show cfg0.N = 32 from N_0]; omega
  refine ⟨⟨8 * (i 0).val + 7, hlt⟩, (flush0_4 _).mpr (by show (8 * (i 0).val + 7) % 8 = 7; omega), ?_⟩
  obtain ⟨j0, j1, j2, s0, s1, s2⟩ := out4_idx ⟨8 * (i 0).val + 7, hlt⟩
  show i ∈ ((View.whole main_v0_2).slice (win0_4.rect ⟨8 * (i 0).val + 7, hlt⟩)).set
  rw [View.set_slice_whole, Rect.mem_set_unit]
  intro a
  match a with
  | ⟨0, _⟩ =>
    show win0_4.index ⟨8 * (i 0).val + 7, hlt⟩ 0 * 1 ≤ (i 0).val ∧ (i 0).val < win0_4.index ⟨8 * (i 0).val + 7, hlt⟩ 0 * 1 + win0_4.xsize (grid0.coords ⟨8 * (i 0).val + 7, hlt⟩) 0
    rw [j0, s0]; show (8 * (i 0).val + 7) / 8 * 1 ≤ (i 0).val ∧ (i 0).val < (8 * (i 0).val + 7) / 8 * 1 + 1; omega
  | ⟨1, _⟩ =>
    show win0_4.index ⟨8 * (i 0).val + 7, hlt⟩ 1 * 1 ≤ (i 1).val ∧ (i 1).val < win0_4.index ⟨8 * (i 0).val + 7, hlt⟩ 1 * 1 + win0_4.xsize (grid0.coords ⟨8 * (i 0).val + 7, hlt⟩) 1
    rw [j1, s1]; omega
  | ⟨2, _⟩ =>
    show win0_4.index ⟨8 * (i 0).val + 7, hlt⟩ 2 * 1 ≤ (i 2).val ∧ (i 2).val < win0_4.index ⟨8 * (i 0).val + 7, hlt⟩ 2 * 1 + win0_4.xsize (grid0.coords ⟨8 * (i 0).val + 7, hlt⟩) 2
    rw [j2, s2]; omega

/-- So result array 4 ends holding the totals. -/
theorem final4 (c : Dev nD) : (dats m 0 c).arrAt 4 cfg0.N = G m (fun _ b => FloatOps.mulf (F := Ideal) (φ := .f32) b b) c :=
  (dats m 0 c).arrAt_eq_of_cover 4 (G m (fun _ b => FloatOps.mulf (F := Ideal) (φ := .f32) b b) c) (flushed4 m c) (cover4 c)

/-- The write-back of output 5 after point `t` (a tile d = 7) writes block `t` of the array of totals. -/
theorem flushed5 (c : Dev nD) (t : Fin cfg0.N) (hf : (cfg0.win 5).flush t = true) :
    (dats m 0 c).flushed 5 t = ((cfg0.win 5).blk t).view.read (Elt Ideal) (G m (fun a _ => FloatOps.mulf (F := Ideal) (φ := .f32) a a) c) := by
  have h7 : t.val % 8 = 7 := (flush0_5 t).mp hf
  have hN : t.val < 32 := lt_of_lt_of_eq t.isLt (show cfg0.N = 32 from N_0)
  have hb : t.val / 8 < 4 := by omega
  obtain ⟨i0, i1, i2, -, -, -⟩ := out5_idx t
  show (cfg0.win 5).cut (grid0.coords t) ((dats m 0 c).after 5 t) = _
  rw [after5]
  funext y
  rw [View.read_apply]
  show (accum (P7 m c) t.val y : EReal) = G m (fun a _ => FloatOps.mulf (F := Ideal) (φ := .f32) a a) c (((cfg0.win 5).blk t).view.emb y)
  have e1 : (accum (P7 m c) t.val y : EReal) = accum (P7 m c) (8 * (⟨t.val / 8, hb⟩ : Fin 4).val + 7) y :=
    congrArg (fun n => (accum (P7 m c) n y : EReal)) (by show t.val = 8 * (t.val / 8) + 7; omega)
  refine (e1.trans (acc_total m (fun a _ => FloatOps.mulf (F := Ideal) (φ := .f32) a a) c (P7 m c) (fun t j => part7_at (iblk m c 0 t) (iblk m c 1 t) j) ⟨t.val / 8, hb⟩ y)).trans ?_
  refine congrArg (total _) (Fin.ext ?_)
  have hy : (y 0).val < 1 := (y 0).isLt
  show t.val / 8 = win0_5.index t 0 * 1 + 1 * (y 0).val
  rw [i0]; omega

/-- Every entry of result array 5 lies in the block written back after tile 7 of its batch element. -/
theorem cover5 (c : Dev nD) (i : S4x1x1.Idx) : ∃ t : Fin cfg0.N, (cfg0.win 5).flush t = true ∧ i ∈ ((cfg0.win 5).blk t).view.set := by
  have h0 : (i 0).val < 4 := (i 0).isLt
  have h1 : (i 1).val < 1 := (i 1).isLt
  have h2 : (i 2).val < 1 := (i 2).isLt
  have hlt : 8 * (i 0).val + 7 < cfg0.N := by rw [show cfg0.N = 32 from N_0]; omega
  refine ⟨⟨8 * (i 0).val + 7, hlt⟩, (flush0_5 _).mpr (by show (8 * (i 0).val + 7) % 8 = 7; omega), ?_⟩
  obtain ⟨j0, j1, j2, s0, s1, s2⟩ := out5_idx ⟨8 * (i 0).val + 7, hlt⟩
  show i ∈ ((View.whole main_v0_3).slice (win0_5.rect ⟨8 * (i 0).val + 7, hlt⟩)).set
  rw [View.set_slice_whole, Rect.mem_set_unit]
  intro a
  match a with
  | ⟨0, _⟩ =>
    show win0_5.index ⟨8 * (i 0).val + 7, hlt⟩ 0 * 1 ≤ (i 0).val ∧ (i 0).val < win0_5.index ⟨8 * (i 0).val + 7, hlt⟩ 0 * 1 + win0_5.xsize (grid0.coords ⟨8 * (i 0).val + 7, hlt⟩) 0
    rw [j0, s0]; show (8 * (i 0).val + 7) / 8 * 1 ≤ (i 0).val ∧ (i 0).val < (8 * (i 0).val + 7) / 8 * 1 + 1; omega
  | ⟨1, _⟩ =>
    show win0_5.index ⟨8 * (i 0).val + 7, hlt⟩ 1 * 1 ≤ (i 1).val ∧ (i 1).val < win0_5.index ⟨8 * (i 0).val + 7, hlt⟩ 1 * 1 + win0_5.xsize (grid0.coords ⟨8 * (i 0).val + 7, hlt⟩) 1
    rw [j1, s1]; omega
  | ⟨2, _⟩ =>
    show win0_5.index ⟨8 * (i 0).val + 7, hlt⟩ 2 * 1 ≤ (i 2).val ∧ (i 2).val < win0_5.index ⟨8 * (i 0).val + 7, hlt⟩ 2 * 1 + win0_5.xsize (grid0.coords ⟨8 * (i 0).val + 7, hlt⟩) 2
    rw [j2, s2]; omega

/-- So result array 5 ends holding the totals. -/
theorem final5 (c : Dev nD) : (dats m 0 c).arrAt 5 cfg0.N = G m (fun a _ => FloatOps.mulf (F := Ideal) (φ := .f32) a a) c :=
  (dats m 0 c).arrAt_eq_of_cover 5 (G m (fun a _ => FloatOps.mulf (F := Ideal) (φ := .f32) a a) c) (flushed5 m c) (cover5 c)

/-- The write-back of output 6 after point `t` (a tile d = 7) writes block `t` of the array of totals. -/
theorem flushed6 (c : Dev nD) (t : Fin cfg0.N) (hf : (cfg0.win 6).flush t = true) :
    (dats m 0 c).flushed 6 t = ((cfg0.win 6).blk t).view.read (Elt Ideal) (G m (fun a b => FloatOps.mulf (F := Ideal) (φ := .f32) b a) c) := by
  have h7 : t.val % 8 = 7 := (flush0_6 t).mp hf
  have hN : t.val < 32 := lt_of_lt_of_eq t.isLt (show cfg0.N = 32 from N_0)
  have hb : t.val / 8 < 4 := by omega
  obtain ⟨i0, i1, i2, -, -, -⟩ := out6_idx t
  show (cfg0.win 6).cut (grid0.coords t) ((dats m 0 c).after 6 t) = _
  rw [after6]
  funext y
  rw [View.read_apply]
  show (accum (P8 m c) t.val y : EReal) = G m (fun a b => FloatOps.mulf (F := Ideal) (φ := .f32) b a) c (((cfg0.win 6).blk t).view.emb y)
  have e1 : (accum (P8 m c) t.val y : EReal) = accum (P8 m c) (8 * (⟨t.val / 8, hb⟩ : Fin 4).val + 7) y :=
    congrArg (fun n => (accum (P8 m c) n y : EReal)) (by show t.val = 8 * (t.val / 8) + 7; omega)
  refine (e1.trans (acc_total m (fun a b => FloatOps.mulf (F := Ideal) (φ := .f32) b a) c (P8 m c) (fun t j => part8_at (iblk m c 0 t) (iblk m c 1 t) j) ⟨t.val / 8, hb⟩ y)).trans ?_
  refine congrArg (total _) (Fin.ext ?_)
  have hy : (y 0).val < 1 := (y 0).isLt
  show t.val / 8 = win0_6.index t 0 * 1 + 1 * (y 0).val
  rw [i0]; omega

/-- Every entry of result array 6 lies in the block written back after tile 7 of its batch element. -/
theorem cover6 (c : Dev nD) (i : S4x1x1.Idx) : ∃ t : Fin cfg0.N, (cfg0.win 6).flush t = true ∧ i ∈ ((cfg0.win 6).blk t).view.set := by
  have h0 : (i 0).val < 4 := (i 0).isLt
  have h1 : (i 1).val < 1 := (i 1).isLt
  have h2 : (i 2).val < 1 := (i 2).isLt
  have hlt : 8 * (i 0).val + 7 < cfg0.N := by rw [show cfg0.N = 32 from N_0]; omega
  refine ⟨⟨8 * (i 0).val + 7, hlt⟩, (flush0_6 _).mpr (by show (8 * (i 0).val + 7) % 8 = 7; omega), ?_⟩
  obtain ⟨j0, j1, j2, s0, s1, s2⟩ := out6_idx ⟨8 * (i 0).val + 7, hlt⟩
  show i ∈ ((View.whole main_v0_4).slice (win0_6.rect ⟨8 * (i 0).val + 7, hlt⟩)).set
  rw [View.set_slice_whole, Rect.mem_set_unit]
  intro a
  match a with
  | ⟨0, _⟩ =>
    show win0_6.index ⟨8 * (i 0).val + 7, hlt⟩ 0 * 1 ≤ (i 0).val ∧ (i 0).val < win0_6.index ⟨8 * (i 0).val + 7, hlt⟩ 0 * 1 + win0_6.xsize (grid0.coords ⟨8 * (i 0).val + 7, hlt⟩) 0
    rw [j0, s0]; show (8 * (i 0).val + 7) / 8 * 1 ≤ (i 0).val ∧ (i 0).val < (8 * (i 0).val + 7) / 8 * 1 + 1; omega
  | ⟨1, _⟩ =>
    show win0_6.index ⟨8 * (i 0).val + 7, hlt⟩ 1 * 1 ≤ (i 1).val ∧ (i 1).val < win0_6.index ⟨8 * (i 0).val + 7, hlt⟩ 1 * 1 + win0_6.xsize (grid0.coords ⟨8 * (i 0).val + 7, hlt⟩) 1
    rw [j1, s1]; omega
  | ⟨2, _⟩ =>
    show win0_6.index ⟨8 * (i 0).val + 7, hlt⟩ 2 * 1 ≤ (i 2).val ∧ (i 2).val < win0_6.index ⟨8 * (i 0).val + 7, hlt⟩ 2 * 1 + win0_6.xsize (grid0.coords ⟨8 * (i 0).val + 7, hlt⟩) 2
    rw [j2, s2]; omega

/-- So result array 6 ends holding the totals. -/
theorem final6 (c : Dev nD) : (dats m 0 c).arrAt 6 cfg0.N = G m (fun a b => FloatOps.mulf (F := Ideal) (φ := .f32) b a) c :=
  (dats m 0 c).arrAt_eq_of_cover 6 (G m (fun a b => FloatOps.mulf (F := Ideal) (φ := .f32) b a) c) (flushed6 m c) (cover6 c)

end Cert.KernelIdeal.Acc

end
-- ==== Proof.Tail.lean ====
/-
  The closing formula, shared by both programs.

  From the five per-batch-element sums I = Σ y_true, J = Σ y_pred, I2 = Σ y_true², J2 = Σ y_pred², IJ = Σ y_true·y_pred
  and the constant n = 192³ (the number of entries summed), both programs form
      u_I = I / n,  u_J = J / n,
      cross = IJ − u_J·I − u_I·J + u_I·u_J·n,
      var_I = I2 − 2·u_I·I + u_I·u_I·n,   var_J = J2 − 2·u_J·J + u_J·u_J·n,
      cc = cross / (√var_I · √var_J + ε)
  with the same operations in the same order and the same three float literals (n, 2, ε). The formula is stated
  here once, as one function of the five sums; the two programs are compared by comparing the sums, and this
  function is never opened.
-/
import Idealize.ShloMosaic.PureOps.Ideal

noncomputable section

namespace Cert.Tail

open Idealize.ShloMosaic

abbrev B4 : Shape := ⟨1, ![4]⟩
abbrev Sc : Shape := ⟨0, ![]⟩

/-- The correlation coefficient of each batch element from its five sums. -/
def cc (hb : Sc.BroadcastsInDim B4 (![] : Fin 0 → Fin B4.rank))
    (I J I2 J2 IJ : FVec Ideal B4 .f32) : FVec Ideal B4 .f32 :=
  let n : FVec Ideal B4 .f32 := broadcastInDim B4 ![] hb (constant (F := Ideal) Sc .f32 0x4AD80000#32)
  let two : FVec Ideal B4 .f32 := broadcastInDim B4 ![] hb (constant (F := Ideal) Sc .f32 0x40000000#32)
  let eps : FVec Ideal B4 .f32 := broadcastInDim B4 ![] hb (constant (F := Ideal) Sc .f32 0x3727C5AC#32)
  let uI : FVec Ideal B4 .f32 := Host.divf (F := Ideal) I n
  let uJ : FVec Ideal B4 .f32 := Host.divf (F := Ideal) J n
  let cross : FVec Ideal B4 .f32 := addf (subf (subf IJ (mulf uJ I)) (mulf uI J)) (mulf (mulf uI uJ) n)
  let vI : FVec Ideal B4 .f32 := addf (subf I2 (mulf (mulf two uI) I)) (mulf (mulf uI uI) n)
  let vJ : FVec Ideal B4 .f32 := addf (subf J2 (mulf (mulf two uJ) J)) (mulf (mulf uJ uJ) n)
  Host.divf (F := Ideal) cross (addf (mulf (Host.sqrt (F := Ideal) vI) (Host.sqrt (F := Ideal) vJ)) eps)

end Cert.Tail

end
-- ==== Proof.IdealTail.lean ====
/-
  The kernel's result, over the extended reals.

  After the region the program reshapes each of the five result arrays [4, 1, 1] to [4] and applies the closing
  formula. Entry b of a reshaped array is entry [b, 0, 0] of the array, the total of batch element b; so the program's
  result is the closing formula of the five per-batch-element totals, and its two arguments end unchanged.
-/
import proofs.«133945_j64441689309643_2_alg».proof.Proof.IdealRun
import proofs.«133945_j64441689309643_2_alg».proof.Proof.IdealValue
import proofs.«133945_j64441689309643_2_alg».proof.Proof.Tail
import Idealize.ShloMosaic.Lib.StableHlo.Run
import Idealize.ShloMosaic.Lib.Tactic

set_option maxRecDepth 16384

noncomputable section

open scoped BigOperators

namespace Cert.KernelIdeal.Acc

open Cert.KernelIdeal Cert.KernelIdeal.Gen
open Idealize.ShloMosaic Idealize.ShloMosaic.TcCoe Idealize.SL.Sem Idealize.ShloMosaic.ValueIdx Idealize.ShloMosaic.StableHlo
open Idealize.ShloMosaic.Pipeline (Dat)
open Cert.Sums

variable (m : (ℓ : Loc nD τ sig) → Buf (Elt Ideal) ℓ) (ρ : Dev nD → PrngReg)

/-- One of the five sums as the program's host part sees it: entry `b` is the total over batch element `b`. -/
def ksums (φ : EReal → EReal → EReal) (c : Dev nD) : S4.Idx → EReal :=
  fun j => total (fun i => φ (X0 m c i) (X1 m c i)) (j 0 : Fin 4)

/-- Reshaping a result array [4, 1, 1] to [4] reads entry [b, 0, 0] at `b`. -/
theorem reshape_G (φ : EReal → EReal → EReal) (c : Dev nD) (h : S4x1x1.ShapeCasts S4) :
    shapeCast S4 (G m φ c) h = ksums m φ c := by
  funext j
  obtain ⟨b, rfl⟩ : ∃ b : Fin 4, j = ix1 b := ⟨j 0, eq_ix1 j⟩
  refine (shapeCast_apply _ h (ix1 b) (ix3 b 0 0) ?_).trans rfl
  rw [Shape.rowMajor_val_three, Shape.rowMajor_val_one]
  show (b.val * 1 + 0) * 1 + 0 = b.val
  omega

set_option maxHeartbeats 2000000 in
/-- The host operations after the region, from any contents `W` of the buffers: the result is the closing formula of
    the five result arrays reshaped. -/
theorem tail_eq (W : Valuation τ sig (Elt Ideal)) :
    StableHlo.after (hostOps1 (F := Ideal)) W (Proc.devRef .tc main_v39)
      = Cert.Tail.cc bcast_S_S4
          (shapeCast S4 (W (Proc.devRef .tc main_v0_0) : S4x1x1.Idx → EReal) shapeCasts_S4x1x1_S4)
          (shapeCast S4 (W (Proc.devRef .tc main_v0_1) : S4x1x1.Idx → EReal) shapeCasts_S4x1x1_S4)
          (shapeCast S4 (W (Proc.devRef .tc main_v0_2) : S4x1x1.Idx → EReal) shapeCasts_S4x1x1_S4)
          (shapeCast S4 (W (Proc.devRef .tc main_v0_3) : S4x1x1.Idx → EReal) shapeCasts_S4x1x1_S4)
          (shapeCast S4 (W (Proc.devRef .tc main_v0_4) : S4x1x1.Idx → EReal) shapeCasts_S4x1x1_S4) := by
  after_results_simp
  rfl

/-- The region's exit contents: the arrays at what the proof data computes, everything else as found. -/
abbrev exitVal (c : Dev nD) : Valuation τ sig (Elt Ideal) :=
  Pipeline.withArrays spec0 c (V0 m c) fun w => (dats m 0 c).arrAt w cfg0.N

theorem exit2 (c : Dev nD) : (exitVal m c (Proc.devRef .tc main_v0_0) : S4x1x1.Idx → EReal) = G m (fun _ b => b) c :=
  (Pipeline.withArrays_arr spec0 launch0.win.arr_inj c (V0 m c) (fun w => (dats m 0 c).arrAt w cfg0.N) 2).trans (final2 m c)
theorem exit3 (c : Dev nD) : (exitVal m c (Proc.devRef .tc main_v0_1) : S4x1x1.Idx → EReal) = G m (fun a _ => a) c :=
  (Pipeline.withArrays_arr spec0 launch0.win.arr_inj c (V0 m c) (fun w => (dats m 0 c).arrAt w cfg0.N) 3).trans (final3 m c)
theorem exit4 (c : Dev nD) : (exitVal m c (Proc.devRef .tc main_v0_2) : S4x1x1.Idx → EReal) = G m (fun _ b => FloatOps.mulf (F := Ideal) (φ := .f32) b b) c :=
  (Pipeline.withArrays_arr spec0 launch0.win.arr_inj c (V0 m c) (fun w => (dats m 0 c).arrAt w cfg0.N) 4).trans (final4 m c)
theorem exit5 (c : Dev nD) : (exitVal m c (Proc.devRef .tc main_v0_3) : S4x1x1.Idx → EReal) = G m (fun a _ => FloatOps.mulf (F := Ideal) (φ := .f32) a a) c :=
  (Pipeline.withArrays_arr spec0 launch0.win.arr_inj c (V0 m c) (fun w => (dats m 0 c).arrAt w cfg0.N) 5).trans (final5 m c)
theorem exit6 (c : Dev nD) : (exitVal m c (Proc.devRef .tc main_v0_4) : S4x1x1.Idx → EReal) = G m (fun a b => FloatOps.mulf (F := Ideal) (φ := .f32) b a) c :=
  (Pipeline.withArrays_arr spec0 launch0.win.arr_inj c (V0 m c) (fun w => (dats m 0 c).arrAt w cfg0.N) 6).trans (final6 m c)

/-- The program's result: the closing formula of the five per-batch-element totals. -/
theorem result (c : Dev nD) :
    Pipeline.afterTail₀ cfgs (dats m) 0 (V0 m) [hostOps1] c main_v39
      = Cert.Tail.cc bcast_S_S4 (ksums m (fun _ b => b) c) (ksums m (fun a _ => a) c) (ksums m (fun _ b => FloatOps.mulf (F := Ideal) (φ := .f32) b b) c)
          (ksums m (fun a _ => FloatOps.mulf (F := Ideal) (φ := .f32) a a) c) (ksums m (fun a b => FloatOps.mulf (F := Ideal) (φ := .f32) b a) c) := by
  unfold Pipeline.afterTail₀
  show StableHlo.after hostOps1 (exitVal m c) (Proc.devRef .tc main_v39) = _
  rw [tail_eq, exit2, exit3, exit4, exit5, exit6, reshape_G, reshape_G, reshape_G, reshape_G, reshape_G]

/-- The result buffer is none of the region's arrays. -/
theorem result_rest : main_v39 ∈ Pipeline.restRefs sig (cfgs 0).spec := by decide

/-- The kernel's run, read: every weakly fair execution terminates with the result at the closing formula of the five
    totals and the two arguments unchanged. -/
theorem run : θ_run defs (onTc (τ := τ) (main (F := Ideal))) ⟨m, fun _ => 0, ρ⟩ fun r => ∀ c : Dev nD,
      r.2.mem ((c.tc : Thread nD τ).loc main_v39)
        = Cert.Tail.cc bcast_S_S4 (ksums m (fun _ b => b) c) (ksums m (fun a _ => a) c) (ksums m (fun _ b => FloatOps.mulf (F := Ideal) (φ := .f32) b b) c)
            (ksums m (fun a _ => FloatOps.mulf (F := Ideal) (φ := .f32) a a) c) (ksums m (fun a b => FloatOps.mulf (F := Ideal) (φ := .f32) b a) c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v39 result_rest).trans (result m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Acc

end
-- ==== Proof.RefValue.lean ====
/-
  The reference, over the extended reals: its five reductions are the per-batch-element totals, and its result is the
  shared closing formula of them.

  The reference reduces x1, x0, x1·x1, x0·x0 and x1·x0 over the axes 1, 2, 3, 4 from the initial value +0.0. Over
  the extended reals such a reduction is the initial value plus the sum of the entries it sends to a result index;
  the initial value is the real 0; and the entries sent to result index b are exactly those with first coordinate b,
  whose sum is the total of batch element b.
-/
import proofs.«133945_j64441689309643_2_alg».proof.Proof.Gen.ReferenceIdeal.Read
import proofs.«133945_j64441689309643_2_alg».proof.Proof.Sums
import proofs.«133945_j64441689309643_2_alg».proof.Proof.Tail
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx
open Cert.Sums

/-- A reduction over the axes 1, 2, 3, 4 from the zero word, at result index `b`, is the total of batch element `b`. -/
theorem reduce_total (h : S4x1x192x192x192.ReducesTo [1, 2, 3, 4] S4) (y : S4x1x192x192x192.Idx → EReal) (b : Fin 4) :
    Ideal.hostReduceAdd h y (Ideal.ofBits .f32 0x00000000#32) (ix1 b) = total y b := by
  unfold Ideal.hostReduceAdd
  rw [sum_filter_batch, Ideal.ofBits_zero_f32, zero_add]

/-- The five sums as functions of the two arguments: entry `b` is the total over batch element `b`. -/
def sums (φ : EReal → EReal → EReal) (x0 x1 : S4x1x192x192x192.Idx → EReal) : S4.Idx → EReal :=
  fun j => total (fun i => φ (x0 i) (x1 i)) (j 0 : Fin 4)

theorem sumI (x0 x1 : S4x1x192x192x192.Idx → EReal) : val_main_v0 (F := Ideal) x1 = sums (fun _ b => b) x0 x1 := by
  funext j
  obtain ⟨b, rfl⟩ : ∃ b : Fin 4, j = ix1 b := ⟨j 0, eq_ix1 j⟩
  exact reduce_total _ x1 b
theorem sumJ (x0 x1 : S4x1x192x192x192.Idx → EReal) : val_main_v1 (F := Ideal) x0 = sums (fun a _ => a) x0 x1 := by
  funext j
  obtain ⟨b, rfl⟩ : ∃ b : Fin 4, j = ix1 b := ⟨j 0, eq_ix1 j⟩
  exact reduce_total _ x0 b
theorem sumI2 (x0 x1 : S4x1x192x192x192.Idx → EReal) :
    val_main_v3 (F := Ideal) x1 = sums (fun _ b => FloatOps.mulf (F := Ideal) (φ := .f32) b b) x0 x1 := by
  funext j
  obtain ⟨b, rfl⟩ : ∃ b : Fin 4, j = ix1 b := ⟨j 0, eq_ix1 j⟩
  exact reduce_total _ (fun i => FloatOps.mulf (F := Ideal) (φ := .f32) (x1 i) (x1 i)) b
theorem sumJ2 (x0 x1 : S4x1x192x192x192.Idx → EReal) :
    val_main_v5 (F := Ideal) x0 = sums (fun a _ => FloatOps.mulf (F := Ideal) (φ := .f32) a a) x0 x1 := by
  funext j
  obtain ⟨b, rfl⟩ : ∃ b : Fin 4, j = ix1 b := ⟨j 0, eq_ix1 j⟩
  exact reduce_total _ (fun i => FloatOps.mulf (F := Ideal) (φ := .f32) (x0 i) (x0 i)) b
theorem sumIJ (x0 x1 : S4x1x192x192x192.Idx → EReal) :
    val_main_v7 (F := Ideal) x0 x1 = sums (fun a b => FloatOps.mulf (F := Ideal) (φ := .f32) b a) x0 x1 := by
  funext j
  obtain ⟨b, rfl⟩ : ∃ b : Fin 4, j = ix1 b := ⟨j 0, eq_ix1 j⟩
  exact reduce_total _ (fun i => FloatOps.mulf (F := Ideal) (φ := .f32) (x1 i) (x0 i)) b

/-- The reference's result is the closing formula of its five reductions (the same operations in the same order). -/
theorem result_cc (x0 x1 : S4x1x192x192x192.Idx → EReal) :
    val_main_v41 (F := Ideal) x0 x1 = Cert.Tail.cc bcast_S_S4 (val_main_v0 (F := Ideal) x1) (val_main_v1 (F := Ideal) x0)
      (val_main_v3 (F := Ideal) x1) (val_main_v5 (F := Ideal) x0) (val_main_v7 (F := Ideal) x0 x1) := rfl

/-- So the reference's result is the closing formula of the five per-batch-element totals. -/
theorem result_eq (x0 x1 : S4x1x192x192x192.Idx → EReal) :
    val_main_v41 (F := Ideal) x0 x1 = Cert.Tail.cc bcast_S_S4 (sums (fun _ b => b) x0 x1) (sums (fun a _ => a) x0 x1)
      (sums (fun _ b => FloatOps.mulf (F := Ideal) (φ := .f32) b b) x0 x1) (sums (fun a _ => FloatOps.mulf (F := Ideal) (φ := .f32) a a) x0 x1)
      (sums (fun a b => FloatOps.mulf (F := Ideal) (φ := .f32) b a) x0 x1) := by
  rw [result_cc, sumI x0 x1, sumJ x0 x1, sumI2 x0 x1, sumJ2 x0 x1, sumIJ x0 x1]

end Cert.ReferenceIdeal.RefValue

end
-- ==== Proof.lean ====
/-
  Equivalence, over the extended reals, of a tiled normalized-cross-correlation kernel and its reference.

  Both programs take y_pred and y_true of shape [4, 1, 192, 192, 192] and return, for each of the 4 batch elements,
      cc = cross / (√var_I · √var_J + ε)
  where, with I = Σ y_true, J = Σ y_pred, I2 = Σ y_true², J2 = Σ y_pred², IJ = Σ y_true·y_pred over the batch element's
  n = 192³ entries and u_I = I / n, u_J = J / n,
      cross = IJ − u_J·I − u_I·J + u_I·u_J·n,  var_I = I2 − 2·u_I·I + u_I²·n,  var_J = J2 − 2·u_J·J + u_J²·n.

  The reference forms the five sums by one reduction each over the four trailing axes. The kernel walks a 4 × 8 grid:
  point (b, d) loads the slab of depths [24·d, 24·d + 24) of batch element b, reduces it to five partial sums (rows,
  then lanes, of the slab flattened to 4608 × 192), stores them into five one-element output cells when d = 0 and adds
  them to the cells when d ≠ 0; the cells are written back after d = 7. The closing formula is then applied, by both
  programs, with the same operations in the same order on the same three float literals.

  Over the extended reals the kernel's reductions and the reference's are plain sums, and addition is commutative and
  associative: summing 8 slabs of (24 × 192 rows, then 192 lanes) is summing over all depths, heights and widths. So
  the five sums agree, and with them the results. The argument never divides, cancels or distributes, so it holds
  at infinite inputs too and the precondition (finite inputs) is not used.

  Frames: each program runs to its end, faults nowhere, and leaves its arguments unchanged. For the kernel (read at the
  word level and at the extended reals alike) this is the run of its region's body at every grid point, in its two
  control cases, followed by the host operations; for the reference it is its run with the result dropped.
  The idealization rewrote no operation, so there is nothing to preserve.
-/
import proofs.«133945_j64441689309643_2_alg».proof.Defs
import proofs.«133945_j64441689309643_2_alg».proof.Proof.Gen.Kernel
import proofs.«133945_j64441689309643_2_alg».proof.Proof.Gen.KernelIdeal
import proofs.«133945_j64441689309643_2_alg».proof.Proof.Gen.ReferenceIdeal
import proofs.«133945_j64441689309643_2_alg».proof.Proof.Gen.Pre_finite_inputs
import proofs.«133945_j64441689309643_2_alg».proof.Proof.Gen.ReferenceIdeal.Run
import proofs.«133945_j64441689309643_2_alg».proof.Proof.Gen.ReferenceIdeal.Read
import proofs.«133945_j64441689309643_2_alg».proof.Proof.BitsRun
import proofs.«133945_j64441689309643_2_alg».proof.Proof.IdealTail
import proofs.«133945_j64441689309643_2_alg».proof.Proof.RefValue
import Idealize.ShloMosaic.Adequacy
import Idealize.ShloMosaic.Init

noncomputable section

namespace Cert.Proof

open Idealize.ShloMosaic Idealize.SL.Sem

/-- The kernel, at the word level, runs to its end and leaves its arguments unchanged. -/
theorem frame_kernel : Cert.frame_Kernel := fun m ρ _ => Cert.Kernel.Acc.frame m ρ

/-- The same, read over the extended reals. -/
theorem frame_kernelIdeal : Cert.frame_KernelIdeal := fun m ρ _ => Cert.KernelIdeal.Acc.frame m ρ

/-- The reference runs to its end and leaves its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the closing formula of the same five
    per-batch-element totals. -/
theorem algebraic : Cert.algebraic_KernelIdeal_ReferenceIdeal := by
  intro m ρ m' ρ' _ hagree
  refine ⟨_, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact ((Cert.ReferenceIdeal.Read.val_main_v41_eq _ _).trans (Cert.ReferenceIdeal.RefValue.result_eq _ _)).trans rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
